-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x2048 : Shape := ⟨2, ![512, 2048]⟩
abbrev S512x768 : Shape := ⟨2, ![512, 768]⟩
abbrev S2048x128 : Shape := ⟨2, ![2048, 128]⟩
abbrev S128 : Shape := ⟨1, ![128]⟩
abbrev S768x128 : Shape := ⟨2, ![768, 128]⟩
abbrev S256x128 : Shape := ⟨2, ![256, 128]⟩
abbrev S128x1 : Shape := ⟨2, ![128, 1]⟩
abbrev S1 : Shape := ⟨1, ![1]⟩
abbrev S_ : Shape := ⟨0, ![]⟩

class Facts : Prop where
  bcast_S_S512x2048 : S_.BroadcastsInDim S512x2048 (![] : Fin 0 → Fin S512x2048.rank)
  reducesTo_S512x2048_S_d0_1 : S512x2048.ReducesTo [0, 1] S_
  h_S_ : 0 < S_.numel
  bcast_S_S512x768 : S_.BroadcastsInDim S512x768 (![] : Fin 0 → Fin S512x768.rank)
  reducesTo_S512x768_S_d0_1 : S512x768.ReducesTo [0, 1] S_
  bcast_S_S2048x128 : S_.BroadcastsInDim S2048x128 (![] : Fin 0 → Fin S2048x128.rank)
  reducesTo_S2048x128_S_d0_1 : S2048x128.ReducesTo [0, 1] S_
  bcast_S_S128 : S_.BroadcastsInDim S128 (![] : Fin 0 → Fin S128.rank)
  reducesTo_S128_S_d0 : S128.ReducesTo [0] S_
  bcast_S_S768x128 : S_.BroadcastsInDim S768x128 (![] : Fin 0 → Fin S768x128.rank)
  reducesTo_S768x128_S_d0_1 : S768x128.ReducesTo [0, 1] S_
  bcast_S_S256x128 : S_.BroadcastsInDim S256x128 (![] : Fin 0 → Fin S256x128.rank)
  reducesTo_S256x128_S_d0_1 : S256x128.ReducesTo [0, 1] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S128 .f32) (main_arg8 : FVec F S128x1 .f32) (main_arg9 : FVec F S1 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x1 .f32 := Host.absf main_arg8
  let main_cst_14 : FVec F S_ .f32 := constant S_ .f32 0x7F800000#32
  let main_v40 : FVec F S128x1 .f32 := broadcastInDim S128x1 ![] bcast_S_S128x1 main_cst_14
  let main_v41 : IVec S128x1 1 := cmpf .olt main_v39 main_v40
  let main_c_15 : IVec S_ 1 := constantI S_ 1 1#1
  let main_v42 : IVec S_ 1 := (fun x v => Host.reduce IntOp.andi x v reducesTo_S128x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S768x128 .f32) (main_arg5 : FVec F S128 .f32) (main_arg6 : FVec F S256x128 .f32) (main_arg7 : FVec F S128 .f32) (main_arg8 : FVec F S128x1 .f32) (main_arg9 : FVec F S1 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S768x128 .f32 := Host.absf main_arg4
  let main_cst_6 : FVec F S_ .f32 := constant S_ .f32 0x7F800000#32
  let main_v20 : FVec F S768x128 .f32 := broadcastInDim S768x128 ![] bcast_S_S768x128 main_cst_6
  let main_v21 : IVec S768x128 1 := cmpf .olt main_v19 main_v20
  let main_c_7 : IVec S_ 1 := constantI S_ 1 1#1
  let main_v22 : IVec S_ 1 := (fun x v => Host.reduce IntOp.andi x v reducesTo_S768x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S256x128 .f32 := Host.absf main_arg6
  let main_cst_10 : FVec F S_ .f32 := constant S_ .f32 0x7F800000#32
  let main_v30 : FVec F S256x128 .f32 := broadcastInDim S256x128 ![] bcast_S_S256x128 main_cst_10
  let main_v31 : IVec S256x128 1 := cmpf .olt main_v29 main_v30
  let main_c_11 : IVec S_ 1 := constantI S_ 1 1#1
  let main_v32 : IVec S_ 1 := (fun x v => Host.reduce IntOp.andi x v reducesTo_S256x128_S_d0_1 h_S_) main_v31 main_c_11
  let main_v33 : IVec S_ 1 := andi main_v28 main_v32
  fn_part2 (F := F) main_arg7 main_arg8 main_arg9 main_v33

def fn {F : FTy → Type} [FloatOps F] (main_arg0 : FVec F S512x2048 .f32) (main_arg1 : FVec F S512x768 .f32) (main_arg2 : FVec F S2048x128 .f32) (main_arg3 : FVec F S128 .f32) (main_arg4 : FVec F S768x128 .f32) (main_arg5 : FVec F S128 .f32) (main_arg6 : FVec F S256x128 .f32) (main_arg7 : FVec F S128 .f32) (main_arg8 : FVec F S128x1 .f32) (main_arg9 : FVec F S1 .f32) : IVec S_ 1 :=
  let main_v0 : FVec F S512x2048 .f32 := Host.absf main_arg0
  let main_cst : FVec F S_ .f32 := constant S_ .f32 0x7F800000#32
  let main_v1 : FVec F S512x2048 .f32 := broadcastInDim S512x2048 ![] bcast_S_S512x2048 main_cst
  let main_v2 : IVec S512x2048 1 := cmpf .olt main_v0 main_v1
  let main_c : IVec S_ 1 := constantI S_ 1 1#1
  let main_v3 : IVec S_ 1 := (fun x v => Host.reduce IntOp.andi x v reducesTo_S512x2048_S_d0_1 h_S_) main_v2 main_c
  let main_v4 : FVec F S512x768 .f32 := Host.absf main_arg1
  let main_cst_0 : FVec F S_ .f32 := constant S_ .f32 0x7F800000#32
  let main_v5 : FVec F S512x768 .f32 := broadcastInDim S512x768 ![] bcast_S_S512x768 main_cst_0
  let main_v6 : IVec S512x768 1 := cmpf .olt main_v4 main_v5
  let main_c_1 : IVec S_ 1 := constantI S_ 1 1#1
  let main_v7 : IVec S_ 1 := (fun x v => Host.reduce IntOp.andi x v reducesTo_S512x768_S_d0_1 h_S_) main_v6 main_c_1
  let main_v8 : IVec S_ 1 := andi main_v3 main_v7
  let main_v9 : FVec F S2048x128 .f32 := Host.absf main_arg2
  let main_cst_2 : FVec F S_ .f32 := constant S_ .f32 0x7F800000#32
  let main_v10 : FVec F S2048x128 .f32 := broadcastInDim S2048x128 ![] bcast_S_S2048x128 main_cst_2
  let main_v11 : IVec S2048x128 1 := cmpf .olt main_v9 main_v10
  let main_c_3 : IVec S_ 1 := constantI S_ 1 1#1
  let main_v12 : IVec S_ 1 := (fun x v => Host.reduce IntOp.andi x v reducesTo_S2048x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_arg8 main_arg9 main_v13 main_v16
-- ==== Kernel.lean ====
abbrev S512x2048 : Shape := ⟨2, ![512, 2048]⟩
abbrev S512x768 : Shape := ⟨2, ![512, 768]⟩
abbrev S2048x128 : Shape := ⟨2, ![2048, 128]⟩
abbrev S128 : Shape := ⟨1, ![128]⟩
abbrev S768x128 : Shape := ⟨2, ![768, 128]⟩
abbrev S256x128 : Shape := ⟨2, ![256, 128]⟩
abbrev S128x1 : Shape := ⟨2, ![128, 1]⟩
abbrev S1 : Shape := ⟨1, ![1]⟩
abbrev S512x128 : Shape := ⟨2, ![512, 128]⟩
abbrev S1x128 : Shape := ⟨2, ![1, 128]⟩
abbrev S128x128 : Shape := ⟨2, ![128, 128]⟩
abbrev S1x1 : Shape := ⟨2, ![1, 1]⟩
abbrev S4x8x128 : Shape := ⟨3, ![4, 8, 128]⟩
abbrev S1x8x128 : Shape := ⟨3, ![1, 8, 128]⟩
abbrev S1x1x128 : Shape := ⟨3, ![1, 1, 128]⟩
abbrev S128x1x128 : Shape := ⟨3, ![128, 1, 128]⟩
abbrev S1x128x128 : Shape := ⟨3, ![1, 128, 128]⟩
abbrev S128x128x128 : Shape := ⟨3, ![128, 128, 128]⟩
abbrev S1x1x1 : Shape := ⟨3, ![1, 1, 1]⟩
abbrev S4x1x1 : Shape := ⟨3, ![4, 1, 1]⟩
abbrev S4 : Shape := ⟨1, ![4]⟩
abbrev S_ : Shape := ⟨0, ![]⟩

abbrev nBuf : Space → Nat
  | .hbm => 39
  | .vmem => 13
  | .smem => 0
  | _ => 0

abbrev bufTy : (tb : Table) → Fin (tcTables nBuf tb) → BufTy
  | .hbm, ⟨0, _⟩ => ⟨S512x2048, .f32⟩
  | .hbm, ⟨1, _⟩ => ⟨S512x768, .f32⟩
  | .hbm, ⟨2, _⟩ => ⟨S2048x128, .f32⟩
  | .hbm, ⟨3, _⟩ => ⟨S128, .f32⟩
  | .hbm, ⟨4, _⟩ => ⟨S768x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S512x128, .f32⟩
  | .hbm, ⟨11, _⟩ => ⟨S1x128, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S1x128, .f32⟩
  | .hbm, ⟨16, _⟩ => ⟨S512x128, .f32⟩
  | .hbm, ⟨17, _⟩ => ⟨S512x128, .f32⟩
  | .hbm, ⟨18, _⟩ => ⟨S128x128, .f32⟩
  | .hbm, ⟨19, _⟩ => ⟨S128x128, .f32⟩
  | .hbm, ⟨20, _⟩ => ⟨S512x128, .f32⟩
  | .hbm, ⟨21, _⟩ => ⟨S1x128, .f32⟩
  | .hbm, ⟨22, _⟩ => ⟨S512x128, .f32⟩
  | .hbm, ⟨23, _⟩ => ⟨S512x128, .f32⟩
  | .hbm, ⟨24, _⟩ => ⟨S512x128, .f32⟩
  | .hbm, ⟨25, _⟩ => ⟨S512x128, .f32⟩
  | .hbm, ⟨26, _⟩ => ⟨S1x128, .f32⟩
  | .hbm, ⟨27, _⟩ => ⟨S512x128, .f32⟩
  | .hbm, ⟨28, _⟩ => ⟨S512x128, .f32⟩
  | .hbm, ⟨29, _⟩ => ⟨S512x128, .f32⟩
  | .hbm, ⟨30, _⟩ => ⟨S1x128, .f32⟩
  | .hbm, ⟨31, _⟩ => ⟨S1x1, .f32⟩
  | .hbm, ⟨32, _⟩ => ⟨S4x8x128, .f32⟩
  | .hbm, ⟨33, _⟩ => ⟨S4x1x1, .f32⟩
  | .hbm, ⟨34, _⟩ => ⟨S4, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .local _ .vmem, ⟨0, _⟩ => ⟨S128x128, .f32⟩
  | .local _ .vmem, ⟨1, _⟩ => ⟨S128x128, .f32⟩
  | .local _ .vmem, ⟨2, _⟩ => ⟨S128x128, .f32⟩
  | .local _ .vmem, ⟨3, _⟩ => ⟨S128x128, .f32⟩
  | .local _ .vmem, ⟨4, _⟩ => ⟨S128x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x128, .f32⟩
  | .local _ .vmem, ⟨9, _⟩ => ⟨S1x1, .f32⟩
  | .local _ .vmem, ⟨10, _⟩ => ⟨S1x8x128, .f32⟩
  | .local _ .vmem, ⟨11, _⟩ => ⟨S1x8x128, .f32⟩
  | .local _ .vmem, ⟨12, _⟩ => ⟨S1x1, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst : Ref sig .tc := ⟨.hbm, 35, rfl⟩
abbrev main_v25 : Ref sig .tc := ⟨.hbm, 36, rfl⟩
abbrev main_cst_0 : Ref sig .tc := ⟨.hbm, 37, rfl⟩
abbrev main_v26 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 4], ![false, false]⟩

def k0_cond2 (i : grid0.Coords) : BitVec 1 :=
  let arg1 : BitVec 32 := BitVec.ofNat 32 (i 1).val
  let c3_i32 : BitVec 32 := 3#32
  let v73 : BitVec 1 := Scalar.cmpi .eq arg1 c3_i32
  let v74 : BitVec 32 := Scalar.extui v73
  let c0_i32_24 : BitVec 32 := 0#32
  let v75 : BitVec 1 := Scalar.cmpi .ne v74 c0_i32_24
  v75

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S128x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  slices_S256x128_S128x128_0_0 : S256x128.Slices ![0, 0] S128x128
  slices_S256x128_S128x128_128_0 : S256x128.Slices ![128, 0] S128x128
  shapeCasts_S128x1_S1x128 : S128x1.ShapeCasts S1x128
  shapeCasts_S1_S1x1 : S1.ShapeCasts S1x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S128x128_S128x128_0_0 : ∀ a, (![0, 0] : Fin 2 → Nat) a + S128x128.size a ≤ S128x128.size a
  h_S128x128 : 0 < S128x128.numel
  shapeCasts_S128x128_S128x128 : S128x128.ShapeCasts S128x128
  bitsLt_bf16_f32 : FTy.bits .bf16 < FTy.bits .f32
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  shapeCasts_S128x128_S128x1x128 : S128x128.ShapeCasts S128x1x128
  shapeCasts_S128x128_S1x128x128 : S128x128.ShapeCasts S1x128x128
  broadcasts_S128x1x128_S128x128x128 : S128x1x128.Broadcasts S128x128x128
  broadcasts_S1x128x128_S128x128x128 : S1x128x128.Broadcasts S128x128x128
  broadcasts_S1x1x128_S128x128x128 : S1x1x128.Broadcasts S128x128x128
  reduces_S128x128x128_S128x128 : S128x128x128.Reduces [2] S128x128
  broadcasts_S1x1_S128x128 : S1x1.Broadcasts S128x128
  iota_S128x128_d0_w32 : S128x128.Iotas .tc 32 [0]
  iota_S128x128_d1_w32 : S128x128.Iotas .tc 32 [1]
  reduces_S128x128_S128 : S128x128.Reduces [1] S128
  shapeCasts_S128_S128x1 : S128.ShapeCasts S128x1
  reduces_S128x1_S1 : S128x1.Reduces [0] S1
  shapeCasts_S1x1_S1x1x1 : S1x1.ShapeCasts S1x1x1
  broadcasts_S1x1x1_S1x8x128 : S1x1x1.Broadcasts S1x8x128
  inb_S1x8x128_S1x8x128_0_0_0 : ∀ a, (![0, 0, 0] : Fin 3 → Nat) a + S1x8x128.size a ≤ S1x8x128.size a
  h_S1x8x128 : 0 < S1x8x128.numel
  slices_S4x8x128_S4x1x1_0_0_0 : S4x8x128.Slices ![0, 0, 0] S4x1x1
  shapeCasts_S4x1x1_S4 : S4x1x1.ShapeCasts S4
  reducesTo_S4_S_d0 : S4.ReducesTo [0] S_
  h_S_ : 0 < S_.numel
  dot_S512x2048_S2048x128_S512x128_1_0_0_1_n_n_wf : DotDims.WF S512x2048 S2048x128 S512x128 [1] [0] [0] [1] [] []
  dot_S512x768_S768x128_S512x128_1_0_0_1_n_n_wf : DotDims.WF S512x768 S768x128 S512x128 [1] [0] [0] [1] [] []
  dot_S512x128_S128x128_S512x128_1_0_0_1_n_n_wf : DotDims.WF S512x128 S128x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x128.size a ≤ S512x128.size a
  hwx0_0 : ∀ i : grid0.Coords, EltTy.bits .f32 = 32 ∨ (Rect.block (s := S512x128) S128x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S512x128.size a
  hwx0_1 : ∀ i : grid0.Coords, EltTy.bits .f32 = 32 ∨ (Rect.block (s := S512x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S512x128.size a
  hwx0_2 : ∀ i : grid0.Coords, EltTy.bits .f32 = 32 ∨ (Rect.block (s := S512x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S512x128.size a
  hwx0_3 : ∀ i : grid0.Coords, EltTy.bits .f32 = 32 ∨ (Rect.block (s := S512x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8x128.size a ≤ S4x8x128.size a
  hwx0_6 : ∀ i : grid0.Coords, EltTy.bits .f32 = 32 ∨ (Rect.block (s := S4x8x128) S1x8x128.size (cc0_transform_6 i) (hinb0_6 i)).WholeWords (EltTy.packing .f32)

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x768_S768x128_S512x128_1_0_0_1_n_n : DotDims S512x768 S768x128 S512x128 where
  lhsContracting := [1]
  rhsContracting := [0]
  lhsNonContracting := [0]
  rhsNonContracting := [1]
  lhsBatch := []
  rhsBatch := []
  wf := dot_S512x768_S768x128_S512x128_1_0_0_1_n_n_wf
def dot_S512x128_S128x128_S512x128_1_0_0_1_n_n : DotDims S512x128 S128x128 S512x128 where
  lhsContracting := [1]
  rhsContracting := [0]
  lhsNonContracting := [0]
  rhsNonContracting := [1]
  lhsBatch := []
  rhsBatch := []
  wf := dot_S512x128_S128x128_S512x128_1_0_0_1_n_n_wf

abbrev win0_0 : Pipeline.Window sig grid0 :=
  Pipeline.Window.ofSpec (Memref.whole main_v13) S128x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S128x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v18) S128x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v19) S128x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v20) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S1x8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S512x2048 : Shape := ⟨2, ![512, 2048]⟩
abbrev S512x768 : Shape := ⟨2, ![512, 768]⟩
abbrev S2048x128 : Shape := ⟨2, ![2048, 128]⟩
abbrev S128 : Shape := ⟨1, ![128]⟩
abbrev S768x128 : Shape := ⟨2, ![768, 128]⟩
abbrev S256x128 : Shape := ⟨2, ![256, 128]⟩
abbrev S128x1 : Shape := ⟨2, ![128, 1]⟩
abbrev S1 : Shape := ⟨1, ![1]⟩
abbrev S512x128 : Shape := ⟨2, ![512, 128]⟩
abbrev S1x128 : Shape := ⟨2, ![1, 128]⟩
abbrev S512x1x128 : Shape := ⟨3, ![512, 1, 128]⟩
abbrev S512x512x128 : Shape := ⟨3, ![512, 512, 128]⟩
abbrev S1x512x128 : Shape := ⟨3, ![1, 512, 128]⟩
abbrev S512x512x256 : Shape := ⟨3, ![512, 512, 256]⟩
abbrev S1x1x128 : Shape := ⟨3, ![1, 1, 128]⟩
abbrev S_ : Shape := ⟨0, ![]⟩
abbrev S512x512x1 : Shape := ⟨3, ![512, 512, 1]⟩
abbrev S1x1x1 : Shape := ⟨3, ![1, 1, 1]⟩
abbrev S512x512 : Shape := ⟨2, ![512, 512]⟩

abbrev nBuf : Space → Nat
  | .hbm => 96
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x768, .f32⟩
  | .hbm, ⟨2, _⟩ => ⟨S2048x128, .f32⟩
  | .hbm, ⟨3, _⟩ => ⟨S128, .f32⟩
  | .hbm, ⟨4, _⟩ => ⟨S768x128, .f32⟩
  | .hbm, ⟨5, _⟩ => ⟨S128, .f32⟩
  | .hbm, ⟨6, _⟩ => ⟨S256x128, .f32⟩
  | .hbm, ⟨7, _⟩ => ⟨S128, .f32⟩
  | .hbm, ⟨8, _⟩ => ⟨S128x1, .f32⟩
  | .hbm, ⟨9, _⟩ => ⟨S1, .f32⟩
  | .hbm, ⟨10, _⟩ => ⟨S512x128, .f32⟩
  | .hbm, ⟨11, _⟩ => ⟨S1x128, .f32⟩
  | .hbm, ⟨12, _⟩ => ⟨S512x128, .f32⟩
  | .hbm, ⟨13, _⟩ => ⟨S512x128, .f32⟩
  | .hbm, ⟨14, _⟩ => ⟨S512x128, .f32⟩
  | .hbm, ⟨15, _⟩ => ⟨S1x128, .f32⟩
  | .hbm, ⟨16, _⟩ => ⟨S512x128, .f32⟩
  | .hbm, ⟨17, _⟩ => ⟨S512x128, .f32⟩
  | .hbm, ⟨18, _⟩ => ⟨S512x1x128, .f32⟩
  | .hbm, ⟨19, _⟩ => ⟨S512x512x128, .f32⟩
  | .hbm, ⟨20, _⟩ => ⟨S1x512x128, .f32⟩
  | .hbm, ⟨21, _⟩ => ⟨S512x512x128, .f32⟩
  | .hbm, ⟨22, _⟩ => ⟨S512x512x256, .f32⟩
  | .hbm, ⟨23, _⟩ => ⟨S512x512x128, .f32⟩
  | .hbm, ⟨24, _⟩ => ⟨S1x1x128, .f32⟩
  | .hbm, ⟨25, _⟩ => ⟨S512x512x128, .f32⟩
  | .hbm, ⟨26, _⟩ => ⟨S512x512x128, .f32⟩
  | .hbm, ⟨27, _⟩ => ⟨S_, .f32⟩
  | .hbm, ⟨28, _⟩ => ⟨S512x512x128, .f32⟩
  | .hbm, ⟨29, _⟩ => ⟨S512x512x128, .f32⟩
  | .hbm, ⟨30, _⟩ => ⟨S512x512x1, .f32⟩
  | .hbm, ⟨31, _⟩ => ⟨S1x1x1, .f32⟩
  | .hbm, ⟨32, _⟩ => ⟨S512x512x1, .f32⟩
  | .hbm, ⟨33, _⟩ => ⟨S512x512x1, .f32⟩
  | .hbm, ⟨34, _⟩ => ⟨S512x512x1, .f32⟩
  | .hbm, ⟨35, _⟩ => ⟨S512x512x1, .f32⟩
  | .hbm, ⟨36, _⟩ => ⟨S_, .f32⟩
  | .hbm, ⟨37, _⟩ => ⟨S512x512x1, .f32⟩
  | .hbm, ⟨38, _⟩ => ⟨S512x512x1, .f32⟩
  | .hbm, ⟨39, _⟩ => ⟨S_, .f32⟩
  | .hbm, ⟨40, _⟩ => ⟨S512x512x1, .f32⟩
  | .hbm, ⟨41, _⟩ => ⟨S512x512x1, .f32⟩
  | .hbm, ⟨42, _⟩ => ⟨S512x512, .f32⟩
  | .hbm, ⟨43, _⟩ => ⟨S512x512, .i32⟩
  | .hbm, ⟨44, _⟩ => ⟨S512x512, .i32⟩
  | .hbm, ⟨45, _⟩ => ⟨S_, .i32⟩
  | .hbm, ⟨46, _⟩ => ⟨S512x512, .i32⟩
  | .hbm, ⟨47, _⟩ => ⟨S512x512, .i32⟩
  | .hbm, ⟨48, _⟩ => ⟨S512x512, .i1⟩
  | .hbm, ⟨49, _⟩ => ⟨S512x512, .f32⟩
  | .hbm, ⟨50, _⟩ => ⟨S_, .f32⟩
  | .hbm, ⟨51, _⟩ => ⟨S512x512, .f32⟩
  | .hbm, ⟨52, _⟩ => ⟨S512x512, .f32⟩
  | .hbm, ⟨53, _⟩ => ⟨S512x512, .f32⟩
  | .hbm, ⟨54, _⟩ => ⟨S512x1x128, .f32⟩
  | .hbm, ⟨55, _⟩ => ⟨S512x512x128, .f32⟩
  | .hbm, ⟨56, _⟩ => ⟨S1x512x128, .f32⟩
  | .hbm, ⟨57, _⟩ => ⟨S512x512x128, .f32⟩
  | .hbm, ⟨58, _⟩ => ⟨S512x512x256, .f32⟩
  | .hbm, ⟨59, _⟩ => ⟨S512x512x128, .f32⟩
  | .hbm, ⟨60, _⟩ => ⟨S1x1x128, .f32⟩
  | .hbm, ⟨61, _⟩ => ⟨S512x512x128, .f32⟩
  | .hbm, ⟨62, _⟩ => ⟨S512x512x128, .f32⟩
  | .hbm, ⟨63, _⟩ => ⟨S_, .f32⟩
  | .hbm, ⟨64, _⟩ => ⟨S512x512x128, .f32⟩
  | .hbm, ⟨65, _⟩ => ⟨S512x512x128, .f32⟩
  | .hbm, ⟨66, _⟩ => ⟨S512x512x1, .f32⟩
  | .hbm, ⟨67, _⟩ => ⟨S1x1x1, .f32⟩
  | .hbm, ⟨68, _⟩ => ⟨S512x512x1, .f32⟩
  | .hbm, ⟨69, _⟩ => ⟨S512x512x1, .f32⟩
  | .hbm, ⟨70, _⟩ => ⟨S512x512x1, .f32⟩
  | .hbm, ⟨71, _⟩ => ⟨S512x512x1, .f32⟩
  | .hbm, ⟨72, _⟩ => ⟨S_, .f32⟩
  | .hbm, ⟨73, _⟩ => ⟨S512x512x1, .f32⟩
  | .hbm, ⟨74, _⟩ => ⟨S512x512x1, .f32⟩
  | .hbm, ⟨75, _⟩ => ⟨S_, .f32⟩
  | .hbm, ⟨76, _⟩ => ⟨S512x512x1, .f32⟩
  | .hbm, ⟨77, _⟩ => ⟨S512x512x1, .f32⟩
  | .hbm, ⟨78, _⟩ => ⟨S512x512, .f32⟩
  | .hbm, ⟨79, _⟩ => ⟨S512x512, .i32⟩
  | .hbm, ⟨80, _⟩ => ⟨S512x512, .i32⟩
  | .hbm, ⟨81, _⟩ => ⟨S_, .i32⟩
  | .hbm, ⟨82, _⟩ => ⟨S512x512, .i32⟩
  | .hbm, ⟨83, _⟩ => ⟨S512x512, .i32⟩
  | .hbm, ⟨84, _⟩ => ⟨S512x512, .i1⟩
  | .hbm, ⟨85, _⟩ => ⟨S512x512, .f32⟩
  | .hbm, ⟨86, _⟩ => ⟨S_, .f32⟩
  | .hbm, ⟨87, _⟩ => ⟨S512x512, .f32⟩
  | .hbm, ⟨88, _⟩ => ⟨S512x512, .f32⟩
  | .hbm, ⟨89, _⟩ => ⟨S512x512, .f32⟩
  | .hbm, ⟨90, _⟩ => ⟨S512x512, .f32⟩
  | .hbm, ⟨91, _⟩ => ⟨S512x512, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S_, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_cst : Ref sig .tc := ⟨.hbm, 27, rfl⟩
abbrev main_call0_v0 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst : Ref sig .tc := ⟨.hbm, 36, rfl⟩
abbrev main_v24 : Ref sig .tc := ⟨.hbm, 37, rfl⟩
abbrev main_v25 : Ref sig .tc := ⟨.hbm, 38, rfl⟩
abbrev main_cst_0 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_1 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_call1_cst : Ref sig .tc := ⟨.hbm, 63, rfl⟩
abbrev main_call1_v0 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_cst_2 : Ref sig .tc := ⟨.hbm, 72, rfl⟩
abbrev main_v54 : Ref sig .tc := ⟨.hbm, 73, rfl⟩
abbrev main_v55 : Ref sig .tc := ⟨.hbm, 74, rfl⟩
abbrev main_cst_3 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_c_4 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_cst_5 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_cst_6 : Ref sig .tc := ⟨.hbm, 92, rfl⟩
abbrev main_v70 : Ref sig .tc := ⟨.hbm, 93, rfl⟩
abbrev main_cst_7 : Ref sig .tc := ⟨.hbm, 94, rfl⟩
abbrev main_v71 : Ref sig .tc := ⟨.hbm, 95, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S512x128_0_1 : S1x128.BroadcastsInDim S512x128 (![0, 1] : Fin 2 → Fin S512x128.rank)
  bcast_S512x128_S512x1x128_0_2 : S512x128.BroadcastsInDim S512x1x128 (![0, 2] : Fin 2 → Fin S512x1x128.rank)
  bcast_S512x1x128_S512x512x128_0_1_2 : S512x1x128.BroadcastsInDim S512x512x128 (![0, 1, 2] : Fin 3 → Fin S512x512x128.rank)
  bcast_S512x128_S1x512x128_1_2 : S512x128.BroadcastsInDim S1x512x128 (![1, 2] : Fin 2 → Fin S1x512x128.rank)
  bcast_S1x512x128_S512x512x128_0_1_2 : S1x512x128.BroadcastsInDim S512x512x128 (![0, 1, 2] : Fin 3 → Fin S512x512x128.rank)
  concatenates_S512x512x128_S512x512x128_S512x512x256_d2 : Shape.Concatenates [S512x512x128, S512x512x128] S512x512x256 2
  bcast_S128_S1x1x128_2 : S128.BroadcastsInDim S1x1x128 (![2] : Fin 1 → Fin S1x1x128.rank)
  bcast_S1x1x128_S512x512x128_0_1_2 : S1x1x128.BroadcastsInDim S512x512x128 (![0, 1, 2] : Fin 3 → Fin S512x512x128.rank)
  bcast_S_S512x512x128 : S_.BroadcastsInDim S512x512x128 (![] : Fin 0 → Fin S512x512x128.rank)
  bcast_S1_S1x1x1_2 : S1.BroadcastsInDim S1x1x1 (![2] : Fin 1 → Fin S1x1x1.rank)
  bcast_S1x1x1_S512x512x1_0_1_2 : S1x1x1.BroadcastsInDim S512x512x1 (![0, 1, 2] : Fin 3 → Fin S512x512x1.rank)
  bcast_S_S512x512x1 : S_.BroadcastsInDim S512x512x1 (![] : Fin 0 → Fin S512x512x1.rank)
  shapeCasts_S512x512x1_S512x512 : S512x512x1.ShapeCasts S512x512
  bcast_S_S512x512 : S_.BroadcastsInDim S512x512 (![] : Fin 0 → Fin S512x512.rank)
  reducesTo_S512x512_S_d0_1 : S512x512.ReducesTo [0, 1] S_
  h_S_ : 0 < S_.numel
  dot_S512x2048_S2048x128_S512x128_1_0_0_1_n_n_wf : DotDims.WF S512x2048 S2048x128 S512x128 [1] [0] [0] [1] [] []
  dot_S512x768_S768x128_S512x128_1_0_0_1_n_n_wf : DotDims.WF S512x768 S768x128 S512x128 [1] [0] [0] [1] [] []
  dot_S512x512x256_S256x128_S512x512x128_2_0_01_1_n_n_wf : DotDims.WF S512x512x256 S256x128 S512x512x128 [2] [0] [0, 1] [1] [] []
  dot_S512x512x128_S128x1_S512x512x1_2_0_01_1_n_n_wf : DotDims.WF S512x512x128 S128x1 S512x512x1 [2] [0] [0, 1] [1] [] []

variable [Facts₀]

def dot_S512x2048_S2048x128_S512x128_1_0_0_1_n_n : DotDims S512x2048 S2048x128 S512x128 where
  lhsContracting := [1]
  rhsContracting := [0]
  lhsNonContracting := [0]
  rhsNonContracting := [1]
  lhsBatch := []
  rhsBatch := []
  wf := dot_S512x2048_S2048x128_S512x128_1_0_0_1_n_n_wf
def dot_S512x768_S768x128_S512x128_1_0_0_1_n_n : DotDims S512x768 S768x128 S512x128 where
  lhsContracting := [1]
  rhsContracting := [0]
  lhsNonContracting := [0]
  rhsNonContracting := [1]
  lhsBatch := []
  rhsBatch := []
  wf := dot_S512x768_S768x128_S512x128_1_0_0_1_n_n_wf
def dot_S512x512x256_S256x128_S512x512x128_2_0_01_1_n_n : DotDims S512x512x256 S256x128 S512x512x128 where
  lhsContracting := [2]
  rhsContracting := [0]
  lhsNonContracting := [0, 1]
  rhsNonContracting := [1]
  lhsBatch := []
  rhsBatch := []
  wf := dot_S512x512x256_S256x128_S512x512x128_2_0_01_1_n_n_wf
def dot_S512x512x128_S128x1_S512x512x1_2_0_01_1_n_n : DotDims S512x512x128 S128x1 S512x512x1 where
  lhsContracting := [2]
  rhsContracting := [0]
  lhsNonContracting := [0, 1]
  rhsNonContracting := [1]
  lhsBatch := []
  rhsBatch := []
  wf := dot_S512x512x128_S128x1_S512x512x1_2_0_01_1_n_n_wf

class Facts : Prop extends Facts₀ where

variable [Facts]
-- ==== Proof.LibTileSum.lean ====
/-
  Sums over a range cut into equal blocks, and over a square cut into square tiles.

  In a commutative monoid the order and grouping of a finite sum are free. So the sum of `g` over the `A · B` indices
  `0 … A·B − 1` is the sum, over the `A` blocks, of the sum over the `B` indices `B·i … B·i + B − 1` of block `i`; and the sum of
  `f` over a square of side `A · B` is the sum over its `A × A` tiles of the sum over the `B × B` entries of each tile.
  Likewise the sum over the points `t = B·i + j` of an `A × B` grid visited row by row is the double sum over `(i, j)`.
  Only associativity and commutativity of `+` are used, so the laws hold on the extended reals whatever the terms are.
-/
import Mathlib.Algebra.BigOperators.Fin
import Mathlib.Algebra.BigOperators.Intervals
import Mathlib.Logic.Equiv.Fin.Basic
import Mathlib.Tactic

namespace Cert.LibTileSum

open Finset

/-- Index `r` of block `i` lies below `A · B`. -/
theorem blk_lt {A B : ℕ} (i : Fin A) (r : Fin B) : B * i.val + r.val < A * B := by
  have h1 : B * (i.val + 1) ≤ B * A := Nat.mul_le_mul_left B i.isLt
  have h2 := r.isLt
  rw [Nat.mul_add, Nat.mul_one] at h1
  rw [Nat.mul_comm A B]
  omega

/-- Index `r` of block `i`, as an index of the whole range. -/
def blk {A B N : ℕ} (h : A * B = N) (i : Fin A) (r : Fin B) : Fin N := ⟨B * i.val + r.val, h ▸ blk_lt i r⟩

@[simp] theorem blk_val {A B N : ℕ} (h : A * B = N) (i : Fin A) (r : Fin B) : (blk h i r).val = B * i.val + r.val := rfl

/-- A sum over `A · B` indices, taken block by block. -/
theorem sum_blocks {M : Type*} [AddCommMonoid M] {A B N : ℕ} (h : A * B = N) (g : Fin N → M) :
    ∑ x : Fin N, g x = ∑ i : Fin A, ∑ r : Fin B, g (blk h i r) := by
  subst h
  rw [← Equiv.sum_comp finProdFinEquiv g, Fintype.sum_prod_type]
  refine Finset.sum_congr rfl fun i _ => Finset.sum_congr rfl fun r _ => congrArg g (Fin.ext ?_)
  show r.val + B * i.val = B * i.val + r.val
  exact Nat.add_comm _ _

/-- A sum over a square of side `A · B`, taken tile by tile. -/
theorem sum_tiles {M : Type*} [AddCommMonoid M] {A B N : ℕ} (h : A * B = N) (f : Fin N → Fin N → M) :
    ∑ x : Fin N, ∑ y : Fin N, f x y
      = ∑ i : Fin A, ∑ j : Fin A, ∑ r : Fin B, ∑ c : Fin B, f (blk h i r) (blk h j c) := by
  calc ∑ x : Fin N, ∑ y : Fin N, f x y
      = ∑ i : Fin A, ∑ r : Fin B, ∑ y : Fin N, f (blk h i r) y := sum_blocks h _
    _ = ∑ i : Fin A, ∑ r : Fin B, ∑ j : Fin A, ∑ c : Fin B, f (blk h i r) (blk h j c) :=
        Finset.sum_congr rfl fun i _ => Finset.sum_congr rfl fun r _ => sum_blocks h _
    _ = ∑ i : Fin A, ∑ j : Fin A, ∑ r : Fin B, ∑ c : Fin B, f (blk h i r) (blk h j c) :=
        Finset.sum_congr rfl fun i _ => Finset.sum_comm

/-- A sum over the points of an `A × B` grid visited row by row (point `t` has coordinates `(t / B mod A, t mod B)`)
    is the double sum over the coordinates. -/
theorem sum_rowMajor {M : Type*} [AddCommMonoid M] {A B N : ℕ} (h : A * B = N) (hA : 0 < A) (hB : 0 < B)
    (g : Fin A → Fin B → M) :
    ∑ t : Fin N, g ⟨t.val / B % A, Nat.mod_lt _ hA⟩ ⟨t.val % B, Nat.mod_lt _ hB⟩ = ∑ i : Fin A, ∑ j : Fin B, g i j := by
  rw [sum_blocks h]
  refine Finset.sum_congr rfl fun i _ => Finset.sum_congr rfl fun j _ => ?_
  have e1 : (B * i.val + j.val) / B = i.val := by
    rw [Nat.add_comm, Nat.add_mul_div_left _ _ hB, Nat.div_eq_of_lt j.isLt, Nat.zero_add]
  have e2 : (B * i.val + j.val) % B = j.val := by
    rw [Nat.add_comm, Nat.add_mul_mod_self_left, Nat.mod_eq_of_lt j.isLt]
  congr 1
  · exact Fin.ext (by show (B * i.val + j.val) / B % A = i.val; rw [e1, Nat.mod_eq_of_lt i.isLt])
  · exact Fin.ext (by show (B * i.val + j.val) % B = j.val; exact e2)

end Cert.LibTileSum
-- ==== Proof.Spec.lean ====
/-
  The pairwise relation loss over the extended reals.

  Given four 512 × 128 matrices (the two halves of the first layer applied to the teacher's and the student's projected
  features: A carries the bias), a weight vector w of length 128 and a scalar c, the relation score of the ordered pair
  (r, s) is the logistic function of  Σ_h max(A r h + B s h, 0) · w h + c ; it is replaced by 0 on the diagonal r = s;
  the loss is the mean over all 512² pairs of the squared difference of the student's and the teacher's masked scores.

  The double sum over the square may be taken tile by tile (4 × 4 tiles of 128 × 128 pairs), and the tiles in the order
  of a row-major walk of the 4 × 4 grid: only associativity and commutativity of + on the extended reals are used.
  Two small laws let another spelling of the same score meet this one: a sum over 256 indices is the sum over its two
  halves, into which a bias may be moved; and multiplying by 1 − [r = s] is replacing by 0 on the diagonal, because
  x · 0 = 0 for every extended real x.
-/
import Idealize.ShloMosaic.PureOps.Ideal.Laws
import Idealize.ShloMosaic.Lib.ValueIdx
import proofs.«147146_j47674136986059_2_alg».proof.Proof.LibTileSum

noncomputable section

open Idealize.ShloMosaic Idealize.ShloMosaic.ValueIdx
open Cert.LibTileSum

namespace Cert.PairRel

/-- An a × b matrix of extended reals, indexed as a rank-2 array is. -/
abbrev Mat (a b : ℕ) : Type := (⟨2, ![a, b]⟩ : Shape).Idx → EReal

theorem h512 : 4 * 128 = 512 := rfl
theorem h256 : 2 * 128 = 256 := rfl
theorem h16 : 4 * 4 = 16 := rfl

/-- The relation score of a row a of the first half-layer against a row b of the second. -/
def scoreRows (a b w : Fin 128 → EReal) (c : EReal) : EReal :=
  Ideal.logistic ((∑ h : Fin 128, max (a h + b h) 0 * w h) + c)

/-- The relation score of the ordered pair (r, s). -/
def score (A B : Mat 512 128) (w : Fin 128 → EReal) (c : EReal) (r s : Fin 512) : EReal :=
  scoreRows (fun h => A (ix2 r h)) (fun h => B (ix2 s h)) w c

/-- The score off the diagonal, 0 on it. -/
def masked (A B : Mat 512 128) (w : Fin 128 → EReal) (c : EReal) (r s : Fin 512) : EReal :=
  if r.val = s.val then 0 else score A B w c r s

/-- The squared difference of two scores, each replaced by 0 where d holds. -/
def sqOf (d : Prop) [Decidable d] (s t : EReal) : EReal :=
  ((if d then 0 else s) - (if d then 0 else t)) * ((if d then 0 else s) - (if d then 0 else t))

/-- The first half of the layer applied to f, with the bias: row r, column h is Σ_k f r k · W k h + b h over k < 128. -/
def firstHalf (f : Mat 512 128) (W : Mat 256 128) (b : Fin 128 → EReal) : Mat 512 128 :=
  fun i => (∑ k : Fin 128, f (ix2 (i 0) k) * W (ix2 (blk h256 0 k) (i 1))) + b (i 1)

/-- The second half of the layer applied to f: row r, column h is Σ_k f r k · W (128 + k) h over k < 128. -/
def secondHalf (f : Mat 512 128) (W : Mat 256 128) : Mat 512 128 :=
  fun i => ∑ k : Fin 128, f (ix2 (i 0) k) * W (ix2 (blk h256 1 k) (i 1))

variable (At Bt As Bs : Mat 512 128) (w : Fin 128 → EReal) (c : EReal)

/-- The squared difference of the student's and the teacher's masked scores at (r, s). -/
def sqDiff (r s : Fin 512) : EReal :=
  (masked As Bs w c r s - masked At Bt w c r s) * (masked As Bs w c r s - masked At Bt w c r s)

theorem sqDiff_eq_sqOf (r s : Fin 512) :
    sqDiff At Bt As Bs w c r s = sqOf (r.val = s.val) (score As Bs w c r s) (score At Bt w c r s) := rfl

/-- The loss: the sum over all pairs, divided by 512². -/
def loss : EReal :=
  Ideal.div (∑ r : Fin 512, ∑ s : Fin 512, sqDiff At Bt As Bs w c r s) (Ideal.ofBits .f32 0x48800000#32)

/-- The sum over tile (i, j): rows 128 i … 128 i + 127, columns 128 j … 128 j + 127. -/
def tile (i j : Fin 4) : EReal :=
  ∑ p : Fin 128, ∑ q : Fin 128, sqDiff At Bt As Bs w c (blk h512 i p) (blk h512 j q)

/-- The tile met at step n of the row-major walk of the 4 × 4 grid. -/
def tileAt (n : ℕ) : EReal :=
  tile At Bt As Bs w c ⟨n / 4 % 4, Nat.mod_lt _ (by decide)⟩ ⟨n % 4, Nat.mod_lt _ (by decide)⟩

/-- The sixteen tiles' sums, four per row of the grid in the order of the walk, add up to the double sum. -/
theorem sum_tileAt :
    ∑ i : Fin 4, ∑ s ∈ Finset.range 4, tileAt At Bt As Bs w c (4 * i.val + s)
      = ∑ r : Fin 512, ∑ s : Fin 512, sqDiff At Bt As Bs w c r s := by
  symm
  calc ∑ r : Fin 512, ∑ s : Fin 512, sqDiff At Bt As Bs w c r s
      = ∑ i : Fin 4, ∑ j : Fin 4, tile At Bt As Bs w c i j := sum_tiles h512 _
    _ = ∑ t : Fin 16, tile At Bt As Bs w c ⟨t.val / 4 % 4, Nat.mod_lt _ (by decide)⟩ ⟨t.val % 4, Nat.mod_lt _ (by decide)⟩ :=
        (sum_rowMajor h16 (by decide) (by decide) (fun i j => tile At Bt As Bs w c i j)).symm
    _ = ∑ i : Fin 4, ∑ r : Fin 4, tileAt At Bt As Bs w c (4 * i.val + r.val) := sum_blocks h16 _
    _ = ∑ i : Fin 4, ∑ s ∈ Finset.range 4, tileAt At Bt As Bs w c (4 * i.val + s) :=
        Finset.sum_congr rfl fun i _ => (Finset.sum_range fun s => tileAt At Bt As Bs w c (4 * i.val + s)).symm

/-- A sum over 256 indices plus a bias: the first half's sum with the bias, plus the second half's sum. -/
theorem split_sum_add (f : Fin 256 → EReal) (b : EReal) :
    (∑ k : Fin 256, f k) + b = ((∑ k : Fin 128, f (blk h256 0 k)) + b) + ∑ k : Fin 128, f (blk h256 1 k) := by
  rw [sum_blocks h256, Fin.sum_univ_two, add_right_comm]

/-- Multiplying by 1 − [P] is replacing by 0 where P holds. -/
theorem mul_one_sub_ind (x : EReal) (P : Prop) [Decidable P] :
    x * ((1 : EReal) - (if P then 1 else 0)) = if P then 0 else x := by
  by_cases h : P
  · rw [if_pos h, if_pos h]
    have e : (1 : EReal) - 1 = 0 := by
      rw [← EReal.coe_one, ← EReal.coe_sub, sub_self, EReal.coe_zero]
    rw [e, mul_zero]
  · rw [if_neg h, if_neg h, sub_zero, mul_one]

/-! ### The integer comparison that marks the diagonal -/

/-- Two numbers below 2³² are equal when their 32-bit words are. -/
theorem ofNat_eq_iff (a b : ℕ) (ha : a < 4294967296) (hb : b < 4294967296) :
    BitVec.ofNat 32 a = BitVec.ofNat 32 b ↔ a = b := by
  constructor
  · intro h
    have h' := congrArg BitVec.toNat h
    rw [BitVec.toNat_ofNat, BitVec.toNat_ofNat, Nat.mod_eq_of_lt (by simpa using ha), Nat.mod_eq_of_lt (by simpa using hb)] at h'
    exact h'
  · rintro rfl; rfl

/-- The word 128 · i + p, computed on 32-bit words. -/
theorem word_mul_add (i p : ℕ) :
    IntOp.addi (IntOp.muli (BitVec.ofNat 32 i) 128#32) (BitVec.ofNat 32 p) = BitVec.ofNat 32 (128 * i + p) := by
  unfold IntOp.addi IntOp.muli
  apply BitVec.eq_of_toNat_eq
  simp only [BitVec.toNat_add, BitVec.toNat_mul, BitVec.toNat_ofNat]
  omega

/-- The equality test on words is the bit of the Boolean test. -/
theorem cmpi_eq_ofBool (x y : BitVec 32) : IntOp.cmpi .eq x y = BitVec.ofBool (x == y) := rfl

/-- A select on an integer equality test is an if-then-else on the equality. -/
theorem select_cmpi_eq {α : Type} (x y : BitVec 32) (a b : α) :
    Scalar.select (IntOp.cmpi .eq x y) a b = if x = y then a else b := by
  rw [cmpi_eq_ofBool]
  unfold Scalar.select
  by_cases h : x = y
  · subst h; simp
  · rw [beq_eq_false_iff_ne.mpr h, if_neg h]
    exact if_neg (by decide)

/-- An integer equality test read as a number is the indicator of the equality. -/
theorem cmpi_eq_toReal (x y : BitVec 32) :
    (((IntOp.cmpi .eq x y).toNat : ℝ) : EReal) = if x = y then 1 else 0 := by
  rw [cmpi_eq_ofBool]
  by_cases h : x = y <;> simp [h]

/-! ### The float literals the two programs spell, as extended reals -/

/-- The pattern of 1.0 denotes 1. -/
theorem ofBits_one_f32 : Ideal.ofBits .f32 0x3F800000#32 = 1 := by
  simp [Ideal.ofBits, Ideal.ieee, -EReal.coe_mul]; norm_num

/-- The 16-bit pattern of +0.0 denotes 0. -/
theorem ofBits_zero_bf16 : Ideal.ofBits .bf16 0x0000#16 = 0 := by
  simp [Ideal.ofBits, Ideal.ieee]

/-- The logistic function spelt with the literal 1.0 as numerator and summand. -/
theorem logistic_spelt (x : EReal) :
    Ideal.div (Ideal.ofBits .f32 0x3F800000#32) (Ideal.ofBits .f32 0x3F800000#32 + Ideal.exp (-x)) = Ideal.logistic x := by
  rw [ofBits_one_f32]; rfl

end Cert.PairRel

end
-- ==== Proof.RefSide.lean ====
/-
  The reference's result is the pairwise relation loss.

  Read one operation at a time, the reference joins row r and row s of the projected features along a third axis of length 256,
  contracts it with the 256 × 128 first-layer weights and adds the bias; a sum over those 256 joined features is the sum over the
  first 128 (row r against the upper half of the weights) plus the sum over the last 128 (row s against the lower half), so the hidden
  pre-activation at (r, s, h) is A r h + B s h for the two half-layer matrices A (with the bias) and B. The rectified hidden layer
  against the output weights plus the output bias is the logit; 1 / (1 + e^(−logit)) is the logistic function; the factor
  1 − [r = s] replaces the diagonal by 0. The mean of the squared differences over all pairs is a sum over every index of a
  512 × 512 array from an initial 0, divided by 512².
-/
import proofs.«147146_j47674136986059_2_alg».proof.Defs
import proofs.«147146_j47674136986059_2_alg».proof.Proof.Gen.ReferenceIdeal
import proofs.«147146_j47674136986059_2_alg».proof.Proof.Gen.ReferenceIdeal.Run
import proofs.«147146_j47674136986059_2_alg».proof.Proof.Gen.ReferenceIdeal.Read
import proofs.«147146_j47674136986059_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read
open Idealize.ShloMosaic Idealize.ShloMosaic.ValueIdx Idealize.ShloMosaic.Pipeline
open Cert.PairRel Cert.LibTileSum

/-! ### The teacher branch -/

section teacher
variable (x0 : (⟨S512x2048, .f32⟩ : BufTy).Contents (Elt Ideal)) (x2 : (⟨S2048x128, .f32⟩ : BufTy).Contents (Elt Ideal)) (x3 : (⟨S128, .f32⟩ : BufTy).Contents (Elt Ideal))
  (x6 : (⟨S256x128, .f32⟩ : BufTy).Contents (Elt Ideal)) (x7 : (⟨S128, .f32⟩ : BufTy).Contents (Elt Ideal))
  (x8 : (⟨S128x1, .f32⟩ : BufTy).Contents (Elt Ideal)) (x9 : (⟨S1, .f32⟩ : BufTy).Contents (Elt Ideal))

/-- The joined array at (r, s, k) with k < 128 is the projected feature (r, k): the first piece repeats row r along the second axis. -/
theorem teacher_pair_left (r s : Fin 512) (k : Fin 128) (j : S512x512x256.Idx)
    (hj0 : (j 0).val = r.val) (hj1 : (j 1).val = s.val) (hj2 : (j 2).val = k.val) :
    val_main_v12 (F := Ideal) x0 x2 x3 j = val_main_v3 (F := Ideal) x0 x2 x3 (ix2 r k) := by
  unfold val_main_v12
  refine (concatenate_pair_apply_left (t := S512x512x256) (s₁ := S512x512x128) (s₂ := S512x512x128) (2 : Fin 3) _ _ concatenates_S512x512x128_S512x512x128_S512x512x256_d2 j rfl (ix3 r s k)
    (fun b => by match b with | ⟨0, _⟩ => exact hj0.symm | ⟨1, _⟩ => exact hj1.symm | ⟨2, _⟩ => exact hj2.symm)).trans ?_
  rw [val_main_v9_apply, val_main_v8_apply]
  exact congrArg _ (funext fun a => Fin.ext (by match a with | ⟨0, _⟩ => rfl | ⟨1, _⟩ => rfl))

/-- The joined array at (r, s, 128 + k) is the projected feature (s, k): the second piece repeats row s along the first axis. -/
theorem teacher_pair_right (r s : Fin 512) (k : Fin 128) (j : S512x512x256.Idx)
    (hj0 : (j 0).val = r.val) (hj1 : (j 1).val = s.val) (hj2 : (j 2).val = 128 + k.val) :
    val_main_v12 (F := Ideal) x0 x2 x3 j = val_main_v3 (F := Ideal) x0 x2 x3 (ix2 s k) := by
  unfold val_main_v12
  refine (concatenate_pair_apply_right (t := S512x512x256) (s₁ := S512x512x128) (s₂ := S512x512x128) (2 : Fin 3) _ _ concatenates_S512x512x128_S512x512x128_S512x512x256_d2 j rfl rfl (ix3 r s k)
    (fun b hb => by
      match b with
      | ⟨0, _⟩ => exact hj0.symm
      | ⟨1, _⟩ => exact hj1.symm
      | ⟨2, _⟩ => exact absurd rfl hb)
    (by show k.val + 128 = (j 2).val; omega)).trans ?_
  rw [val_main_v11_apply, val_main_v10_apply]
  exact congrArg _ (funext fun a => Fin.ext (by match a with | ⟨0, _⟩ => rfl | ⟨1, _⟩ => rfl))

/-- The hidden pre-activation at (r, s, h): the contraction over the 256 joined features plus the bias is the first half of the
    layer on row r, with the bias, plus the second half on row s. -/
theorem teacher_preact (r s : Fin 512) (h : Fin 128) :
    val_main_v16 (F := Ideal) x0 x2 x3 x6 x7 (ix3 r s h)
      = firstHalf (val_main_v3 (F := Ideal) x0 x2 x3) x6 (fun h => x7 (ix1 h)) (ix2 r h)
        + secondHalf (val_main_v3 (F := Ideal) x0 x2 x3) x6 (ix2 s h) := by
  rw [val_main_v16_apply, val_main_v13_apply, val_main_v15_apply, val_main_v14_apply, Ideal.addf_def, split_sum_add]
  unfold firstHalf secondHalf
  refine congrArg₂ (· + ·) (congrArg₂ (· + ·) (Finset.sum_congr rfl fun k _ => congrArg₂ (· * ·) ?_ ?_) ?_)
    (Finset.sum_congr rfl fun k _ => congrArg₂ (· * ·) ?_ ?_)
  · exact teacher_pair_left x0 x2 x3 r s k _ rfl rfl (by show 128 * 0 + k.val = k.val; omega)
  · exact congrArg x6 (funext fun a => Fin.ext (by match a with | ⟨0, _⟩ => rfl | ⟨1, _⟩ => rfl))
  · exact congrArg x7 (funext fun a => Fin.ext (by match a with | ⟨0, _⟩ => rfl))
  · exact teacher_pair_right x0 x2 x3 r s k _ rfl rfl (by show 128 * 1 + k.val = 128 + k.val; omega)
  · exact congrArg x6 (funext fun a => Fin.ext (by match a with | ⟨0, _⟩ => rfl | ⟨1, _⟩ => rfl))

/-- The logit at (r, s): the rectified hidden layer against the output weights, plus the output bias. -/
theorem teacher_logit (r s : Fin 512) :
    val_main_v21 (F := Ideal) x0 x2 x3 x6 x7 x8 x9 (ix3 r s (0 : Fin 1))
      = (∑ h : Fin 128, max (firstHalf (val_main_v3 (F := Ideal) x0 x2 x3) x6 (fun h => x7 (ix1 h)) (ix2 r h)
            + secondHalf (val_main_v3 (F := Ideal) x0 x2 x3) x6 (ix2 s h)) 0 * x8 (ix2 h (0 : Fin 1)))
        + x9 (ix1 (0 : Fin 1)) := by
  rw [val_main_v21_apply, val_main_v18_apply, val_main_v20_apply, val_main_v19_apply, Ideal.addf_def]
  refine congrArg₂ (· + ·) (Finset.sum_congr rfl fun h _ => congrArg₂ (· * ·) ?_ ?_) ?_
  · rw [val_main_v17_apply, val_main_call0_v0_apply, val_main_call0_cst_apply, Ideal.maximumf_def, Ideal.ofBits_def, Ideal.ofBits_zero_f32]
    have e : lidx_main_v18 (ix3 r s (0 : Fin 1)) h = ix3 r s h :=
      funext fun a => Fin.ext (by match a with | ⟨0, _⟩ => rfl | ⟨1, _⟩ => rfl | ⟨2, _⟩ => rfl)
    rw [e, teacher_preact]
  · exact congrArg x8 (funext fun a => Fin.ext (by match a with | ⟨0, _⟩ => rfl | ⟨1, _⟩ => rfl))
  · exact congrArg x9 (funext fun a => Fin.ext (by match a with | ⟨0, _⟩ => rfl))

/-- The relation score at (r, s): the reference's 1 / (1 + e^(−logit)) is the logistic function of the logit. -/
theorem teacher_score (r s : Fin 512) :
    val_main_v27 (F := Ideal) x0 x2 x3 x6 x7 x8 x9 (ix3 r s (0 : Fin 1))
      = score (firstHalf (val_main_v3 (F := Ideal) x0 x2 x3) x6 (fun h => x7 (ix1 h))) (secondHalf (val_main_v3 (F := Ideal) x0 x2 x3) x6)
          (fun h => x8 (ix2 h (0 : Fin 1))) (x9 (ix1 (0 : Fin 1))) r s := by
  rw [val_main_v27_apply, val_main_v26_apply, val_main_cst_0_apply, val_main_v25_apply, val_main_v24_apply, val_main_cst_apply,
    val_main_v23_apply, val_main_v22_apply, teacher_logit]
  simp only [Ideal.hostDivf_def, Ideal.ofBits_def, Ideal.addf_def, Ideal.hostUnary_exp_def, Ideal.hostNegf_def, Ideal.negf_def]
  exact logistic_spelt _

/-- The diagonal factor at (r, s): 1 − [r = s]. -/
theorem teacher_offdiag (r s : Fin 512) :
    val_main_v36 (F := Ideal) (ix2 r s) = (1 : EReal) - (if r.val = s.val then 1 else 0) := by
  rw [val_main_v36_apply, val_main_v35_apply, val_main_cst_1_apply, val_main_v34_apply, val_main_v33_apply, val_main_v32_apply,
    val_main_v29_apply, val_main_v31_apply, val_main_c_apply, val_main_v30_apply, Ideal.subf_def, Ideal.ofBits_def, ofBits_one_f32]
  refine congrArg ((1 : EReal) - ·) ?_
  show (((IntOp.cmpi .eq (IntOp.addi (BitVec.ofNat 32 r.val) 0#32) (BitVec.ofNat 32 s.val)).toNat : ℝ) : EReal) = _
  rw [cmpi_eq_toReal]
  have e : IntOp.addi (BitVec.ofNat 32 r.val) 0#32 = BitVec.ofNat 32 r.val := BitVec.add_zero _
  rw [e]
  have hr := r.isLt; have hs := s.isLt
  exact if_congr (ofNat_eq_iff r.val s.val (by omega) (by omega)) rfl rfl

/-- The masked relation score at (r, s). -/
theorem teacher_masked (r s : Fin 512) :
    val_main_v37 (F := Ideal) x0 x2 x3 x6 x7 x8 x9 (ix2 r s)
      = masked (firstHalf (val_main_v3 (F := Ideal) x0 x2 x3) x6 (fun h => x7 (ix1 h))) (secondHalf (val_main_v3 (F := Ideal) x0 x2 x3) x6)
          (fun h => x8 (ix2 h (0 : Fin 1))) (x9 (ix1 (0 : Fin 1))) r s := by
  have e : idx_main_v28 (ix2 r s) = ix3 r s (0 : Fin 1) := funext fun a => Fin.ext (by
    have hr := r.isLt; have hs := s.isLt
    match a with
    | ⟨0, _⟩ => show (r.val * 512 + s.val) / 512 = r.val; omega
    | ⟨1, _⟩ => show (r.val * 512 + s.val) / 1 % 512 = s.val; omega
    | ⟨2, _⟩ => rfl)
  rw [val_main_v37_apply, val_main_v28_apply, e, teacher_score, teacher_offdiag, Ideal.mulf_def, mul_one_sub_ind]
  rfl

end teacher

/-! ### The student branch -/

section student
variable (x1 : (⟨S512x768, .f32⟩ : BufTy).Contents (Elt Ideal)) (x4 : (⟨S768x128, .f32⟩ : BufTy).Contents (Elt Ideal)) (x5 : (⟨S128, .f32⟩ : BufTy).Contents (Elt Ideal))
  (x6 : (⟨S256x128, .f32⟩ : BufTy).Contents (Elt Ideal)) (x7 : (⟨S128, .f32⟩ : BufTy).Contents (Elt Ideal))
  (x8 : (⟨S128x1, .f32⟩ : BufTy).Contents (Elt Ideal)) (x9 : (⟨S1, .f32⟩ : BufTy).Contents (Elt Ideal))

/-- The joined array at (r, s, k) with k < 128 is the projected feature (r, k): the first piece repeats row r along the second axis. -/
theorem student_pair_left (r s : Fin 512) (k : Fin 128) (j : S512x512x256.Idx)
    (hj0 : (j 0).val = r.val) (hj1 : (j 1).val = s.val) (hj2 : (j 2).val = k.val) :
    val_main_v42 (F := Ideal) x1 x4 x5 j = val_main_v7 (F := Ideal) x1 x4 x5 (ix2 r k) := by
  unfold val_main_v42
  refine (concatenate_pair_apply_left (t := S512x512x256) (s₁ := S512x512x128) (s₂ := S512x512x128) (2 : Fin 3) _ _ concatenates_S512x512x128_S512x512x128_S512x512x256_d2 j rfl (ix3 r s k)
    (fun b => by match b with | ⟨0, _⟩ => exact hj0.symm | ⟨1, _⟩ => exact hj1.symm | ⟨2, _⟩ => exact hj2.symm)).trans ?_
  rw [val_main_v39_apply, val_main_v38_apply]
  exact congrArg _ (funext fun a => Fin.ext (by match a with | ⟨0, _⟩ => rfl | ⟨1, _⟩ => rfl))

/-- The joined array at (r, s, 128 + k) is the projected feature (s, k): the second piece repeats row s along the first axis. -/
theorem student_pair_right (r s : Fin 512) (k : Fin 128) (j : S512x512x256.Idx)
    (hj0 : (j 0).val = r.val) (hj1 : (j 1).val = s.val) (hj2 : (j 2).val = 128 + k.val) :
    val_main_v42 (F := Ideal) x1 x4 x5 j = val_main_v7 (F := Ideal) x1 x4 x5 (ix2 s k) := by
  unfold val_main_v42
  refine (concatenate_pair_apply_right (t := S512x512x256) (s₁ := S512x512x128) (s₂ := S512x512x128) (2 : Fin 3) _ _ concatenates_S512x512x128_S512x512x128_S512x512x256_d2 j rfl rfl (ix3 r s k)
    (fun b hb => by
      match b with
      | ⟨0, _⟩ => exact hj0.symm
      | ⟨1, _⟩ => exact hj1.symm
      | ⟨2, _⟩ => exact absurd rfl hb)
    (by show k.val + 128 = (j 2).val; omega)).trans ?_
  rw [val_main_v41_apply, val_main_v40_apply]
  exact congrArg _ (funext fun a => Fin.ext (by match a with | ⟨0, _⟩ => rfl | ⟨1, _⟩ => rfl))

/-- The hidden pre-activation at (r, s, h): the contraction over the 256 joined features plus the bias is the first half of the
    layer on row r, with the bias, plus the second half on row s. -/
theorem student_preact (r s : Fin 512) (h : Fin 128) :
    val_main_v46 (F := Ideal) x1 x4 x5 x6 x7 (ix3 r s h)
      = firstHalf (val_main_v7 (F := Ideal) x1 x4 x5) x6 (fun h => x7 (ix1 h)) (ix2 r h)
        + secondHalf (val_main_v7 (F := Ideal) x1 x4 x5) x6 (ix2 s h) := by
  rw [val_main_v46_apply, val_main_v43_apply, val_main_v45_apply, val_main_v44_apply, Ideal.addf_def, split_sum_add]
  unfold firstHalf secondHalf
  refine congrArg₂ (· + ·) (congrArg₂ (· + ·) (Finset.sum_congr rfl fun k _ => congrArg₂ (· * ·) ?_ ?_) ?_)
    (Finset.sum_congr rfl fun k _ => congrArg₂ (· * ·) ?_ ?_)
  · exact student_pair_left x1 x4 x5 r s k _ rfl rfl (by show 128 * 0 + k.val = k.val; omega)
  · exact congrArg x6 (funext fun a => Fin.ext (by match a with | ⟨0, _⟩ => rfl | ⟨1, _⟩ => rfl))
  · exact congrArg x7 (funext fun a => Fin.ext (by match a with | ⟨0, _⟩ => rfl))
  · exact student_pair_right x1 x4 x5 r s k _ rfl rfl (by show 128 * 1 + k.val = 128 + k.val; omega)
  · exact congrArg x6 (funext fun a => Fin.ext (by match a with | ⟨0, _⟩ => rfl | ⟨1, _⟩ => rfl))

/-- The logit at (r, s): the rectified hidden layer against the output weights, plus the output bias. -/
theorem student_logit (r s : Fin 512) :
    val_main_v51 (F := Ideal) x1 x4 x5 x6 x7 x8 x9 (ix3 r s (0 : Fin 1))
      = (∑ h : Fin 128, max (firstHalf (val_main_v7 (F := Ideal) x1 x4 x5) x6 (fun h => x7 (ix1 h)) (ix2 r h)
            + secondHalf (val_main_v7 (F := Ideal) x1 x4 x5) x6 (ix2 s h)) 0 * x8 (ix2 h (0 : Fin 1)))
        + x9 (ix1 (0 : Fin 1)) := by
  rw [val_main_v51_apply, val_main_v48_apply, val_main_v50_apply, val_main_v49_apply, Ideal.addf_def]
  refine congrArg₂ (· + ·) (Finset.sum_congr rfl fun h _ => congrArg₂ (· * ·) ?_ ?_) ?_
  · rw [val_main_v47_apply, val_main_call1_v0_apply, val_main_call1_cst_apply, Ideal.maximumf_def, Ideal.ofBits_def, Ideal.ofBits_zero_f32]
    have e : lidx_main_v48 (ix3 r s (0 : Fin 1)) h = ix3 r s h :=
      funext fun a => Fin.ext (by match a with | ⟨0, _⟩ => rfl | ⟨1, _⟩ => rfl | ⟨2, _⟩ => rfl)
    rw [e, student_preact]
  · exact congrArg x8 (funext fun a => Fin.ext (by match a with | ⟨0, _⟩ => rfl | ⟨1, _⟩ => rfl))
  · exact congrArg x9 (funext fun a => Fin.ext (by match a with | ⟨0, _⟩ => rfl))

/-- The relation score at (r, s): the reference's 1 / (1 + e^(−logit)) is the logistic function of the logit. -/
theorem student_score (r s : Fin 512) :
    val_main_v57 (F := Ideal) x1 x4 x5 x6 x7 x8 x9 (ix3 r s (0 : Fin 1))
      = score (firstHalf (val_main_v7 (F := Ideal) x1 x4 x5) x6 (fun h => x7 (ix1 h))) (secondHalf (val_main_v7 (F := Ideal) x1 x4 x5) x6)
          (fun h => x8 (ix2 h (0 : Fin 1))) (x9 (ix1 (0 : Fin 1))) r s := by
  rw [val_main_v57_apply, val_main_v56_apply, val_main_cst_3_apply, val_main_v55_apply, val_main_v54_apply, val_main_cst_2_apply,
    val_main_v53_apply, val_main_v52_apply, student_logit]
  simp only [Ideal.hostDivf_def, Ideal.ofBits_def, Ideal.addf_def, Ideal.hostUnary_exp_def, Ideal.hostNegf_def, Ideal.negf_def]
  exact logistic_spelt _

/-- The diagonal factor at (r, s): 1 − [r = s]. -/
theorem student_offdiag (r s : Fin 512) :
    val_main_v66 (F := Ideal) (ix2 r s) = (1 : EReal) - (if r.val = s.val then 1 else 0) := by
  rw [val_main_v66_apply, val_main_v65_apply, val_main_cst_5_apply, val_main_v64_apply, val_main_v63_apply, val_main_v62_apply,
    val_main_v59_apply, val_main_v61_apply, val_main_c_4_apply, val_main_v60_apply, Ideal.subf_def, Ideal.ofBits_def, ofBits_one_f32]
  refine congrArg ((1 : EReal) - ·) ?_
  show (((IntOp.cmpi .eq (IntOp.addi (BitVec.ofNat 32 r.val) 0#32) (BitVec.ofNat 32 s.val)).toNat : ℝ) : EReal) = _
  rw [cmpi_eq_toReal]
  have e : IntOp.addi (BitVec.ofNat 32 r.val) 0#32 = BitVec.ofNat 32 r.val := BitVec.add_zero _
  rw [e]
  have hr := r.isLt; have hs := s.isLt
  exact if_congr (ofNat_eq_iff r.val s.val (by omega) (by omega)) rfl rfl

/-- The masked relation score at (r, s). -/
theorem student_masked (r s : Fin 512) :
    val_main_v67 (F := Ideal) x1 x4 x5 x6 x7 x8 x9 (ix2 r s)
      = masked (firstHalf (val_main_v7 (F := Ideal) x1 x4 x5) x6 (fun h => x7 (ix1 h))) (secondHalf (val_main_v7 (F := Ideal) x1 x4 x5) x6)
          (fun h => x8 (ix2 h (0 : Fin 1))) (x9 (ix1 (0 : Fin 1))) r s := by
  have e : idx_main_v58 (ix2 r s) = ix3 r s (0 : Fin 1) := funext fun a => Fin.ext (by
    have hr := r.isLt; have hs := s.isLt
    match a with
    | ⟨0, _⟩ => show (r.val * 512 + s.val) / 512 = r.val; omega
    | ⟨1, _⟩ => show (r.val * 512 + s.val) / 1 % 512 = s.val; omega
    | ⟨2, _⟩ => rfl)
  rw [val_main_v67_apply, val_main_v58_apply, e, student_score, student_offdiag, Ideal.mulf_def, mul_one_sub_ind]
  rfl

end student

/-! ### The loss -/

section total
variable (x0 : (⟨S512x2048, .f32⟩ : BufTy).Contents (Elt Ideal)) (x1 : (⟨S512x768, .f32⟩ : BufTy).Contents (Elt Ideal))
  (x2 : (⟨S2048x128, .f32⟩ : BufTy).Contents (Elt Ideal)) (x3 : (⟨S128, .f32⟩ : BufTy).Contents (Elt Ideal))
  (x4 : (⟨S768x128, .f32⟩ : BufTy).Contents (Elt Ideal)) (x5 : (⟨S128, .f32⟩ : BufTy).Contents (Elt Ideal))
  (x6 : (⟨S256x128, .f32⟩ : BufTy).Contents (Elt Ideal)) (x7 : (⟨S128, .f32⟩ : BufTy).Contents (Elt Ideal))
  (x8 : (⟨S128x1, .f32⟩ : BufTy).Contents (Elt Ideal)) (x9 : (⟨S1, .f32⟩ : BufTy).Contents (Elt Ideal))

/-- The reference's result: the loss of the half-layer matrices of the teacher's and the student's projected features. -/
theorem result_eq_loss (i : S_.Idx) :
    val_main_v71 (F := Ideal) x0 x1 x2 x3 x4 x5 x6 x7 x8 x9 i
      = loss (firstHalf (val_main_v3 (F := Ideal) x0 x2 x3) x6 (fun h => x7 (ix1 h))) (secondHalf (val_main_v3 (F := Ideal) x0 x2 x3) x6)
          (firstHalf (val_main_v7 (F := Ideal) x1 x4 x5) x6 (fun h => x7 (ix1 h))) (secondHalf (val_main_v7 (F := Ideal) x1 x4 x5) x6)
          (fun h => x8 (ix2 h (0 : Fin 1))) (x9 (ix1 (0 : Fin 1))) := by
  rw [val_main_v71_apply, val_main_v70_apply, val_main_cst_6_apply, val_main_cst_7_apply, Ideal.hostDivf_def, Ideal.ofBits_def,
    Ideal.ofBits_def, Ideal.ofBits_zero_f32, zero_add, sum_idx2]
  unfold loss
  refine congrArg (Ideal.div · _) (Finset.sum_congr rfl fun r _ => Finset.sum_congr rfl fun s _ => ?_)
  rw [val_main_v69_apply, val_main_v68_apply, teacher_masked, student_masked, Ideal.mulf_def, Ideal.subf_def]
  rfl

end total

end Cert.ReferenceIdeal.RefValue

end
-- ==== Proof.KernelPay.lean ====
/-
  The body's arithmetic at an index, over the extended reals.

  One tile of the body holds 128 rows p of the first half-layer matrix and 128 rows q of the second, for the teacher and for the
  student. The rows are laid along a third axis: entry (p, q, h) of the repeated arrays is row p at h, row q at h, and the output
  weight at h; so the lane sum over h of max(row p + row q, 0) · weight, plus the output bias, is the logit of the pair (p, q) and
  its logistic value the pair's score. The tile's global row 128 i + p and global column 128 j + q are compared as integers to
  put 0 on the diagonal. The squared differences are summed along q, then along p, and added to the accumulator.
  A change of float format is the identity on the extended reals, so the 16-bit casts disappear.
-/
import proofs.«147146_j47674136986059_2_alg».proof.Defs
import proofs.«147146_j47674136986059_2_alg».proof.Proof.Gen.KernelIdeal
import proofs.«147146_j47674136986059_2_alg».proof.Proof.Gen.KernelIdeal.Skeleton
import proofs.«147146_j47674136986059_2_alg».proof.Proof.Spec
import Idealize.ShloMosaic.Lib.ValueIdx
import Idealize.ShloMosaic.Lib.Pipeline.Value
import Idealize.ShloMosaic.PureOps.Ideal.Laws

noncomputable section

namespace Cert.KernelIdeal.PayValue

open Cert.KernelIdeal Cert.KernelIdeal.Gen
open Idealize.ShloMosaic Idealize.ShloMosaic.ValueIdx Idealize.ShloMosaic.Pipeline
open Cert.PairRel

/-! ### Repeats and unit-axis casts read at coordinates -/

section layout
variable {α : Type}

/-- An array with a unit middle axis, repeated along it: entry (p, q, h) is entry (p, 0, h). -/
theorem rep_mid (g : S128x1x128.Idx → α) (h2 : S128x1x128.Broadcasts S128x128x128) (p q h : Fin 128) :
    broadcastTo S128x128x128 g h2 (ix3 p q h) = g (ix3 p (0 : Fin 1) h) :=
  broadcastTo_apply g h2 (ix3 p q h) (ix3 p (0 : Fin 1) h) (fun a => by
    match a with
    | ⟨0, _⟩ => show p.val = if (128 : Nat) = 1 then 0 else p.val; rw [if_neg (by decide)]
    | ⟨1, _⟩ => show 0 = if (1 : Nat) = 1 then 0 else q.val; rw [if_pos rfl]
    | ⟨2, _⟩ => show h.val = if (128 : Nat) = 1 then 0 else h.val; rw [if_neg (by decide)])

/-- A matrix given a unit middle axis: entry (p, 0, h) is entry (p, h). -/
theorem cast_mid (x : S128x128.Idx → α) (h1 : S128x128.ShapeCasts S128x1x128) (p h : Fin 128) :
    shapeCast S128x1x128 x h1 (ix3 p (0 : Fin 1) h) = x (ix2 p h) :=
  shapeCast_apply x h1 (ix3 p (0 : Fin 1) h) (ix2 p h) (by
    rw [Shape.rowMajor_val_two, Shape.rowMajor_val_three]
    show p.val * 128 + h.val = (p.val * 1 + 0) * 128 + h.val
    omega)

/-- An array with a unit leading axis, repeated along it: entry (p, q, h) is entry (0, q, h). -/
theorem rep_lead (g : S1x128x128.Idx → α) (h2 : S1x128x128.Broadcasts S128x128x128) (p q h : Fin 128) :
    broadcastTo S128x128x128 g h2 (ix3 p q h) = g (ix3 (0 : Fin 1) q h) :=
  broadcastTo_apply g h2 (ix3 p q h) (ix3 (0 : Fin 1) q h) (fun a => by
    match a with
    | ⟨0, _⟩ => show 0 = if (1 : Nat) = 1 then 0 else p.val; rw [if_pos rfl]
    | ⟨1, _⟩ => show q.val = if (128 : Nat) = 1 then 0 else q.val; rw [if_neg (by decide)]
    | ⟨2, _⟩ => show h.val = if (128 : Nat) = 1 then 0 else h.val; rw [if_neg (by decide)])

/-- A matrix given a unit leading axis: entry (0, q, h) is entry (q, h). -/
theorem cast_lead (x : S128x128.Idx → α) (h1 : S128x128.ShapeCasts S1x128x128) (q h : Fin 128) :
    shapeCast S1x128x128 x h1 (ix3 (0 : Fin 1) q h) = x (ix2 q h) :=
  shapeCast_apply x h1 (ix3 (0 : Fin 1) q h) (ix2 q h) (by
    rw [Shape.rowMajor_val_two, Shape.rowMajor_val_three]
    show q.val * 128 + h.val = (0 * 128 + q.val) * 128 + h.val
    omega)

/-- A vector along the last axis, repeated along the two others: entry (p, q, h) is entry (0, 0, h). -/
theorem rep_last (g : S1x1x128.Idx → α) (h2 : S1x1x128.Broadcasts S128x128x128) (p q h : Fin 128) :
    broadcastTo S128x128x128 g h2 (ix3 p q h) = g (ix3 (0 : Fin 1) (0 : Fin 1) h) :=
  broadcastTo_apply g h2 (ix3 p q h) (ix3 (0 : Fin 1) (0 : Fin 1) h) (fun a => by
    match a with
    | ⟨0, _⟩ => show 0 = if (1 : Nat) = 1 then 0 else p.val; rw [if_pos rfl]
    | ⟨1, _⟩ => show 0 = if (1 : Nat) = 1 then 0 else q.val; rw [if_pos rfl]
    | ⟨2, _⟩ => show h.val = if (128 : Nat) = 1 then 0 else h.val; rw [if_neg (by decide)])

/-- A row vector given a second unit axis: entry (0, 0, h) is entry (0, h). -/
theorem cast_last (x : S1x128.Idx → α) (h1 : S1x128.ShapeCasts S1x1x128) (h : Fin 128) :
    shapeCast S1x1x128 x h1 (ix3 (0 : Fin 1) (0 : Fin 1) h) = x (ix2 (0 : Fin 1) h) :=
  shapeCast_apply x h1 (ix3 (0 : Fin 1) (0 : Fin 1) h) (ix2 (0 : Fin 1) h) (by
    rw [Shape.rowMajor_val_two, Shape.rowMajor_val_three]
    show 0 * 128 + h.val = (0 * 1 + 0) * 128 + h.val
    omega)

/-- A 1 × 1 array repeated over a tile: every entry is its one entry. -/
theorem rep_scalar (g : S1x1.Idx → α) (h2 : S1x1.Broadcasts S128x128) (p q : Fin 128) :
    broadcastTo S128x128 g h2 (ix2 p q) = g (ix2 (0 : Fin 1) (0 : Fin 1)) :=
  broadcastTo_apply g h2 (ix2 p q) (ix2 (0 : Fin 1) (0 : Fin 1)) (fun a => by
    match a with
    | ⟨0, _⟩ => show 0 = if (1 : Nat) = 1 then 0 else p.val; rw [if_pos rfl]
    | ⟨1, _⟩ => show 0 = if (1 : Nat) = 1 then 0 else q.val; rw [if_pos rfl])

/-- A vector made a column: entry (p, 0) is entry p. -/
theorem cast_col (v : S128.Idx → α) (h1 : S128.ShapeCasts S128x1) (p : Fin 128) :
    shapeCast S128x1 v h1 (ix2 p (0 : Fin 1)) = v (ix1 p) :=
  shapeCast_apply v h1 (ix2 p (0 : Fin 1)) (ix1 p) (by
    rw [Shape.rowMajor_val_one, Shape.rowMajor_val_two]
    show p.val = p.val * 1 + 0
    omega)

/-- A one-entry vector made 1 × 1: its entry. -/
theorem cast_one (v : S1.Idx → α) (h1 : S1.ShapeCasts S1x1) (y : S1x1.Idx) :
    shapeCast S1x1 v h1 y = v (ix1 (0 : Fin 1)) :=
  shapeCast_apply v h1 y (ix1 (0 : Fin 1)) (by
    rw [Shape.rowMajor_val_one, Shape.rowMajor_val_two]
    have h0 : (y 0).val < 1 := (y 0).isLt
    have h1' : (y 1).val < 1 := (y 1).isLt
    show 0 = (y 0).val * 1 + (y 1).val
    omega)

/-- The accumulator spread over the output block: every entry is the accumulator's one entry. -/
theorem pay2_apply (v76 : S1x1.Idx → α) (h1 : S1x1.ShapeCasts S1x1x1) (h2 : S1x1x1.Broadcasts S1x8x128) (y : S1x8x128.Idx) :
    broadcastTo S1x8x128 (shapeCast S1x1x1 v76 h1) h2 y = v76 (ix2 (0 : Fin 1) (0 : Fin 1)) :=
  (broadcastTo_apply _ h2 y (ix3 (0 : Fin 1) (0 : Fin 1) (0 : Fin 1)) (fun a => by
    match a with
    | ⟨0, _⟩ => show 0 = if (1 : Nat) = 1 then 0 else (y 0).val; rw [if_pos rfl]
    | ⟨1, _⟩ => show 0 = if (1 : Nat) = 1 then 0 else (y 1).val; rw [if_pos rfl]
    | ⟨2, _⟩ => show 0 = if (1 : Nat) = 1 then 0 else (y 2).val; rw [if_pos rfl])).trans
  (shapeCast_apply v76 h1 (ix3 (0 : Fin 1) (0 : Fin 1) (0 : Fin 1)) (ix2 (0 : Fin 1) (0 : Fin 1)) (by
    rw [Shape.rowMajor_val_two, Shape.rowMajor_val_three]
    show 0 * 1 + 0 = (0 * 1 + 0) * 1 + 0
    omega))

end layout

/-! ### The sums along an axis -/

/-- The lane sum over the last axis at (p, q). -/
theorem sum_last (v : FVec Ideal S128x128x128 .f32) (p q : Fin 128) :
    multiReduction (F := Ideal) .add [2] S128x128 v 0x00000000#32 reduces_S128x128x128_S128x128 (.inl rfl) rfl (ix2 p q)
      = ∑ h : Fin 128, v (ix3 p q h) :=
  (Ideal.multiReduction_add_single v _ reduces_S128x128x128_S128x128 _ _ (ix2 p q)).trans
    (Finset.sum_congr rfl fun h _ => congrArg v (funext fun c => Fin.ext (by
      match c with | ⟨0, _⟩ => rfl | ⟨1, _⟩ => rfl | ⟨2, _⟩ => rfl)))

/-- The sum along the columns of row p. -/
theorem sum_cols (v : FVec Ideal S128x128 .f32) (p : Fin 128) :
    multiReduction (F := Ideal) .add [1] S128 v 0x00000000#32 reduces_S128x128_S128 (.inl rfl) rfl (ix1 p)
      = ∑ q : Fin 128, v (ix2 p q) :=
  (Ideal.multiReduction_add_single v _ reduces_S128x128_S128 _ _ (ix1 p)).trans
    (Finset.sum_congr rfl fun q _ => congrArg v (funext fun c => Fin.ext (by
      match c with | ⟨0, _⟩ => rfl | ⟨1, _⟩ => rfl)))

/-- The sum down a column vector. -/
theorem sum_rows (v : FVec Ideal S128x1 .f32) :
    multiReduction (F := Ideal) .add [0] S1 v 0x00000000#32 reduces_S128x1_S1 (.inl rfl) rfl (ix1 (0 : Fin 1))
      = ∑ p : Fin 128, v (ix2 p (0 : Fin 1)) :=
  (Ideal.multiReduction_add_single v _ reduces_S128x1_S1 _ _ (ix1 (0 : Fin 1))).trans
    (Finset.sum_congr rfl fun p _ => congrArg v (funext fun c => Fin.ext (by
      match c with | ⟨0, _⟩ => rfl | ⟨1, _⟩ => rfl)))

/-! ### The diagonal test -/

/-- In tile (i, j), the select on "global row = global column" at (p, q). -/
theorem diag_select (i j : ℕ) (hi : i < 4) (hj : j < 4) (z : Ideal .f32) (v : FVec Ideal S128x128 .f32) (p q : Fin 128) :
    select (cmpi .eq
        (addi (broadcast S128x128 (Scalar.muli (BitVec.ofNat 32 i) 128#32)) (iota .tc S128x128 32 [0] iota_S128x128_d0_w32))
        (addi (broadcast S128x128 (Scalar.muli (BitVec.ofNat 32 j) 128#32)) (iota .tc S128x128 32 [1] iota_S128x128_d1_w32)))
      (broadcast S128x128 z) v (ix2 p q)
      = if 128 * i + p.val = 128 * j + q.val then z else v (ix2 p q) := by
  have hp := p.isLt; have hq := q.isLt
  have e0 : iota .tc S128x128 32 [0] iota_S128x128_d0_w32 (ix2 p q) = BitVec.ofNat 32 p.val :=
    iota_single_apply .tc S128x128 32 0 iota_S128x128_d0_w32 (ix2 p q)
  have e1 : iota .tc S128x128 32 [1] iota_S128x128_d1_w32 (ix2 p q) = BitVec.ofNat 32 q.val :=
    iota_single_apply .tc S128x128 32 1 iota_S128x128_d1_w32 (ix2 p q)
  show Scalar.select (IntOp.cmpi .eq
      (IntOp.addi (IntOp.muli (BitVec.ofNat 32 i) 128#32) (iota .tc S128x128 32 [0] iota_S128x128_d0_w32 (ix2 p q)))
      (IntOp.addi (IntOp.muli (BitVec.ofNat 32 j) 128#32) (iota .tc S128x128 32 [1] iota_S128x128_d1_w32 (ix2 p q))))
    z (v (ix2 p q)) = _
  rw [e0, e1, word_mul_add, word_mul_add, select_cmpi_eq]
  exact if_congr (ofNat_eq_iff (128 * i + p.val) (128 * j + q.val) (by omega) (by omega)) rfl rfl

/-! ### The payloads -/

/-- The pre-activation array at (p, q, h): row p of the first block plus row q of the second. -/
theorem pay7_apply (x2 x3 : Vec Ideal S128x128 .f32) (p q h : Fin 128) :
    k0_pay7 (F := Ideal) x2 x3 (ix3 p q h) = x2 (ix2 p h) + x3 (ix2 q h) := by
  unfold k0_pay7
  refine (addf_apply _ _ _).trans (congrArg₂ (· + ·) ?_ ?_)
  · refine (rep_mid _ _ p q h).trans ?_
    refine (cast_mid _ _ p h).trans ?_
    refine (truncf_apply (ψ := .bf16) _ bitsLt_bf16_f32 _).trans ?_
    exact congrFun (shapeCast_self _ _) _
  · refine (rep_lead _ _ p q h).trans ?_
    refine (cast_lead _ _ q h).trans ?_
    refine (truncf_apply (ψ := .bf16) _ bitsLt_bf16_f32 _).trans ?_
    exact congrFun (shapeCast_self _ _) _

/-- The output weights laid along the last axis of a tile: entry (p, q, h) is weight h. -/
theorem pay4_apply (x4 : Vec Ideal S1x128 .f32) (p q h : Fin 128) :
    broadcastTo S128x128x128 (k0_pay4 (F := Ideal) x4) broadcasts_S1x1x128_S128x128x128 (ix3 p q h) = x4 (ix2 (0 : Fin 1) h) := by
  refine (rep_last _ _ p q h).trans ?_
  unfold k0_pay4
  refine (truncf_apply (ψ := .bf16) _ bitsLt_bf16_f32 _).trans ?_
  refine (cast_last _ _ h).trans ?_
  exact congrFun (shapeCast_self _ _) _

/-- The output bias spread over a tile: every entry is the bias. -/
theorem pay5_apply (x5 : Vec Ideal S1x1 .f32) (p q : Fin 128) :
    broadcastTo S128x128 (k0_pay5 (F := Ideal) x5) broadcasts_S1x1_S128x128 (ix2 p q) = x5 (ix2 (0 : Fin 1) (0 : Fin 1)) := by
  refine (rep_scalar _ _ p q).trans ?_
  unfold k0_pay5
  exact congrFun (shapeCast_self _ _) _

/-- The score of the pair (p, q) of a tile, from its pre-activation array S: the logistic value of the lane sum of
    max(S, 0) · weight, plus the bias. -/
theorem score_block (S : FVec Ideal S128x128x128 .bf16) (x4 : Vec Ideal S1x128 .f32) (x5 : Vec Ideal S1x1 .f32)
    (cst : Ideal .bf16) (hc : cst = 0) (a b : Fin 128 → Fin 128 → EReal)
    (hS : ∀ p q h, S (ix3 p q h) = a p h + b q h) (p q : Fin 128) :
    logistic (addf (multiReduction (F := Ideal) .add [2] S128x128
          (extf .f32 (mulf (maximumf S (broadcast S128x128x128 cst))
            (broadcastTo S128x128x128 (k0_pay4 (F := Ideal) x4) broadcasts_S1x1x128_S128x128x128)) bitsLt_bf16_f32)
          0x00000000#32 reduces_S128x128x128_S128x128 (.inl rfl) rfl)
        (broadcastTo S128x128 (k0_pay5 (F := Ideal) x5) broadcasts_S1x1_S128x128)) (ix2 p q)
      = scoreRows (a p) (b q) (fun h => x4 (ix2 (0 : Fin 1) h)) (x5 (ix2 (0 : Fin 1) (0 : Fin 1))) := by
  unfold scoreRows
  refine congrArg Ideal.logistic (congrArg₂ (· + ·) ((sum_last _ p q).trans (Finset.sum_congr rfl fun h _ => ?_)) ?_)
  · exact congrArg₂ (· * ·) (congrArg₂ max (hS p q h) hc) (pay4_apply x4 p q h)
  · exact pay5_apply x5 p q

/-- The 16-bit zero the rectifier compares with is 0. -/
theorem zero16 : (Scalar.ofBits (F := Ideal) .bf16 0x0000#16 : Ideal .bf16) = 0 := ofBits_zero_bf16

/-- The 32-bit zero put on the diagonal is 0. -/
theorem zero32 : (Scalar.ofBits (F := Ideal) .f32 0x00000000#32 : Ideal .f32) = 0 := Ideal.ofBits_zero_f32

/-- The teacher's scores of a tile. -/
theorem pay6_apply (x0 x1 : Vec Ideal S128x128 .f32) (x4 : Vec Ideal S1x128 .f32) (x5 : Vec Ideal S1x1 .f32) (p q : Fin 128) :
    k0_pay6 (F := Ideal) x0 x1 x4 x5 (ix2 p q)
      = scoreRows (fun h => x0 (ix2 p h)) (fun h => x1 (ix2 q h)) (fun h => x4 (ix2 (0 : Fin 1) h)) (x5 (ix2 (0 : Fin 1) (0 : Fin 1))) := by
  unfold k0_pay6 scoreRows
  refine congrArg Ideal.logistic (congrArg₂ (· + ·) ((sum_last _ p q).trans (Finset.sum_congr rfl fun h _ => ?_)) ?_)
  · refine congrArg₂ (· * ·) (congrArg₂ max ?_ zero16) ?_
    · refine (addf_apply _ _ _).trans (congrArg₂ (· + ·) ?_ ?_)
      · refine (rep_mid _ _ p q h).trans ?_
        refine (cast_mid _ _ p h).trans ?_
        refine (truncf_apply (ψ := .bf16) _ bitsLt_bf16_f32 _).trans ?_
        exact congrFun (shapeCast_self _ _) _
      · refine (rep_lead _ _ p q h).trans ?_
        refine (cast_lead _ _ q h).trans ?_
        refine (truncf_apply (ψ := .bf16) _ bitsLt_bf16_f32 _).trans ?_
        exact congrFun (shapeCast_self _ _) _
    · exact pay4_apply x4 p q h
  · exact pay5_apply x5 p q

/-- The new accumulator in tile (i, j): the old one plus the tile's sum of masked squared differences. -/
theorem pay1_apply (i j : ℕ) (hi : i < 4) (hj : j < 4) (x4 : Vec Ideal S1x128 .f32) (x5 : Vec Ideal S1x1 .f32)
    (v34 : FVec Ideal S128x128 .f32) (v39 : FVec Ideal S128x128x128 .bf16) (cst : Ideal .bf16) (hc : cst = 0)
    (xs : Vec Ideal S1x1 .f32) (a b : Fin 128 → Fin 128 → EReal) (hS : ∀ p q h, v39 (ix3 p q h) = a p h + b q h)
    (sT : Fin 128 → Fin 128 → EReal) (hT : ∀ p q, v34 (ix2 p q) = sT p q) (y : S1x1.Idx) :
    k0_pay1 (F := Ideal) (BitVec.ofNat 32 i) (BitVec.ofNat 32 j) (k0_pay4 (F := Ideal) x4) (k0_pay5 (F := Ideal) x5) v34 v39 cst xs y
      = xs y + ∑ p : Fin 128, ∑ q : Fin 128,
          sqOf (128 * i + p.val = 128 * j + q.val)
            (scoreRows (a p) (b q) (fun h => x4 (ix2 (0 : Fin 1) h)) (x5 (ix2 (0 : Fin 1) (0 : Fin 1)))) (sT p q) := by
  unfold k0_pay1
  refine (congrFun (shapeCast_self _ _) y).trans ((addf_apply _ _ _).trans (congrArg (xs y + ·) ?_))
  refine (cast_one _ _ y).trans ((sum_rows _).trans (Finset.sum_congr rfl fun p _ => ?_))
  refine (cast_col _ _ p).trans ((sum_cols _ p).trans (Finset.sum_congr rfl fun q _ => ?_))
  have eS := (diag_select i j hi hj _ _ p q).trans (if_congr Iff.rfl zero32 (score_block v39 x4 x5 cst hc a b hS p q))
  have eT := (diag_select i j hi hj _ v34 p q).trans (if_congr Iff.rfl zero32 (hT p q))
  unfold sqOf
  exact (mulf_apply _ _ _).trans (congrArg₂ (· * ·)
    ((subf_apply _ _ _).trans (congrArg₂ (· - ·) eS eT)) ((subf_apply _ _ _).trans (congrArg₂ (· - ·) eS eT)))

/-- The value the reset stores: 0. -/
theorem pay3_apply (y : S1x1.Idx) : k0_pay3 (F := Ideal) y = 0 := by
  unfold k0_pay3
  exact (congrFun (shapeCast_self _ _) y).trans zero32

end Cert.KernelIdeal.PayValue

end
-- ==== Proof.KernelCases.lean ====
/-
  What each control case of the body leaves behind.

  The body keeps a 1 × 1 accumulator between grid points. At every point it stores accumulator + (this tile's sum); at the first
  point of a row of tiles it first stores 0 there, so that point leaves 0 + (its tile's sum); at the last point of a row of tiles it
  also spreads the accumulator it has just stored over the output block. Each case's stores into the accumulator and into the
  output block are read back here as those values, for any reading of the float operations.
-/
import proofs.«147146_j47674136986059_2_alg».proof.Proof.Gen.KernelIdeal.Frame
import Idealize.ShloMosaic.Lib.Pipeline.Value
import Idealize.ShloMosaic.Lib.Tactic

set_option maxRecDepth 16384

noncomputable section

namespace Cert.KernelIdeal.CaseValue

open Cert.KernelIdeal Cert.KernelIdeal.Gen
open Idealize.ShloMosaic Idealize.ShloMosaic.TcCoe Idealize.SL.Sem Idealize.ShloMosaic.Pipeline

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- The accumulator after a point with grid coordinates i, input blocks x0 … x5 and incoming accumulator acc. -/
def step (i : grid0.Coords) (x0 : Vec F S128x128 .f32) (x1 : Vec F S128x128 .f32) (x2 : Vec F S128x128 .f32) (x3 : Vec F S128x128 .f32) (x4 : Vec F S1x128 .f32) (x5 : Vec F S1x1 .f32) (acc : Vec F S1x1 .f32) : Vec F S1x1 .f32 :=
  k0_pay1 (BitVec.ofNat 32 (i 0).val) (BitVec.ofNat 32 (i 1).val) (k0_pay4 x4) (k0_pay5 x5) (k0_pay6 x0 x1 x4 x5)
    (k0_pay7 x2 x3) (Scalar.ofBits .bf16 0x0000#16) acc

/-- First point of a row of tiles: the accumulator is reset, then stepped. -/
theorem sout_A (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S1x8x128 .f32) (harg8 : arg8.IsWhole) (arg9 : Memref sig .tc .vmem S1x1 .f32) (harg9 : arg9.IsWhole) (hc0 : cond0_0 i) (hc1 : ¬cond0_1 i) (x0 : Vec F S128x128 .f32) (x1 : Vec F S128x128 .f32) (x2 : Vec F S128x128 .f32) (x3 : Vec F S128x128 .f32) (x4 : Vec F S1x128 .f32) (x5 : Vec F S1x1 .f32) :
    sout0_A_0 c i arg2 harg2 arg3 harg3 arg4 harg4 arg5 harg5 arg6 harg6 arg7 harg7 arg8 harg8 arg9 harg9 hc0 hc1 x0 x1 x2 x3 x4 x5 = step i x0 x1 x2 x3 x4 x5 (k0_pay3 (F := F)) := by
  unfold sout0_A_0
  rw [View.read_writes_eq_canon _ _ _ (scover0_A_0 c i arg2 harg2 arg3 harg3 arg4 harg4 arg5 harg5 arg6 harg6 arg7 harg7 arg8 harg8 arg9 harg9 hc0 hc1 x0 x1 x2 x3 x4 x5)]
  unfold kernelRun0_A
  dsimp only
  sl_unfold_words
  rw [View.canon_cons_unit_zero (S := S1x1) hz2, View.readCov_unit_zero (S := S1x1) _ hz2]
  simp only [View.readAt_eq_ld, harg2.read_unread, harg3.read_unread, harg4.read_unread, harg5.read_unread, harg6.read_unread, harg7.read_unread, harg9.read_unread, View.ld_unit_zero (S := S128x128) hz2, View.ld_unit_zero (S := S1x128) hz2, View.ld_unit_zero (S := S1x1) hz2]
  rfl

/-- A middle point: the incoming accumulator is stepped. -/
theorem sout_B (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S1x8x128 .f32) (harg8 : arg8.IsWhole) (arg9 : Memref sig .tc .vmem S1x1 .f32) (harg9 : arg9.IsWhole) (hc0 : ¬cond0_0 i) (hc1 : ¬cond0_1 i) (x0 : Vec F S128x128 .f32) (x1 : Vec F S128x128 .f32) (x2 : Vec F S128x128 .f32) (x3 : Vec F S128x128 .f32) (x4 : Vec F S1x128 .f32) (x5 : Vec F S1x1 .f32) (xs0 : Vec F S1x1 .f32) :
    sout0_B_0 c i arg2 harg2 arg3 harg3 arg4 harg4 arg5 harg5 arg6 harg6 arg7 harg7 arg8 harg8 arg9 harg9 hc0 hc1 x0 x1 x2 x3 x4 x5 xs0 = step i x0 x1 x2 x3 x4 x5 xs0 := by
  unfold sout0_B_0
  rw [View.read_writes_eq_canon _ _ _ (scover0_B_0 c i arg2 harg2 arg3 harg3 arg4 harg4 arg5 harg5 arg6 harg6 arg7 harg7 arg8 harg8 arg9 harg9 hc0 hc1 x0 x1 x2 x3 x4 x5 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg9.read_unread, View.ld_unit_zero (S := S128x128) hz2, View.ld_unit_zero (S := S1x128) hz2, View.ld_unit_zero (S := S1x1) hz2]
  rfl

/-- Last point of a row of tiles: the incoming accumulator is stepped, -/
theorem sout_C (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S1x8x128 .f32) (harg8 : arg8.IsWhole) (arg9 : Memref sig .tc .vmem S1x1 .f32) (harg9 : arg9.IsWhole) (hc0 : ¬cond0_0 i) (hc1 : cond0_1 i) (x0 : Vec F S128x128 .f32) (x1 : Vec F S128x128 .f32) (x2 : Vec F S128x128 .f32) (x3 : Vec F S128x128 .f32) (x4 : Vec F S1x128 .f32) (x5 : Vec F S1x1 .f32) (xs0 : Vec F S1x1 .f32) :
    sout0_C_0 c i arg2 harg2 arg3 harg3 arg4 harg4 arg5 harg5 arg6 harg6 arg7 harg7 arg8 harg8 arg9 harg9 hc0 hc1 x0 x1 x2 x3 x4 x5 xs0 = step i x0 x1 x2 x3 x4 x5 xs0 := by
  unfold sout0_C_0
  rw [View.read_writes_eq_canon _ _ _ (scover0_C_0 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz2]
  simp only [View.readAt_eq_ld, harg2.read_unread, harg3.read_unread, harg4.read_unread, harg5.read_unread, harg6.read_unread, harg7.read_unread, harg9.read_unread, View.ld_unit_zero (S := S128x128) hz2, View.ld_unit_zero (S := S1x128) hz2, View.ld_unit_zero (S := S1x1) hz2]
  rfl

/-- and the output block is filled with it. -/
theorem out_C (c : Dev nD) (i : grid0.Coords) (arg2 : Memref sig .tc .vmem S128x128 .f32) (harg2 : arg2.IsWhole) (arg3 : Memref sig .tc .vmem S128x128 .f32) (harg3 : arg3.IsWhole) (arg4 : Memref sig .tc .vmem S128x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S1x1 .f32) (harg7 : arg7.IsWhole) (arg8 : Memref sig .tc .vmem S1x8x128 .f32) (harg8 : arg8.IsWhole) (arg9 : Memref sig .tc .vmem S1x1 .f32) (harg9 : arg9.IsWhole) (hc0 : ¬cond0_0 i) (hc1 : cond0_1 i) (x0 : Vec F S128x128 .f32) (x1 : Vec F S128x128 .f32) (x2 : Vec F S128x128 .f32) (x3 : Vec F S128x128 .f32) (x4 : Vec F S1x128 .f32) (x5 : Vec F S1x1 .f32) (xs0 : Vec F S1x1 .f32) :
    out0_C_6 c i arg2 harg2 arg3 harg3 arg4 harg4 arg5 harg5 arg6 harg6 arg7 harg7 arg8 harg8 arg9 harg9 hc0 hc1 x0 x1 x2 x3 x4 x5 xs0 = k0_pay2 (step i x0 x1 x2 x3 x4 x5 xs0) := by
  unfold out0_C_6
  rw [View.read_writes_eq_canon _ _ _ (cover0_C_6 c i arg2 harg2 arg3 harg3 arg4 harg4 arg5 harg5 arg6 harg6 arg7 harg7 arg8 harg8 arg9 harg9 hc0 hc1 x0 x1 x2 x3 x4 x5 xs0)]
  unfold kernelRun0_C
  dsimp only
  sl_unfold_words
  rw [View.canon_unit_zero hz3, View.readCov_unit_zero (S := S1x1) _ hz2]
  simp only [View.readAt_eq_ld, harg2.read_unread, harg3.read_unread, harg4.read_unread, harg5.read_unread, harg6.read_unread, harg7.read_unread, harg9.read_unread, View.ld_unit_zero (S := S128x128) hz2, View.ld_unit_zero (S := S1x128) hz2, View.ld_unit_zero (S := S1x1) hz2]
  rfl

end Cert.KernelIdeal.CaseValue

end
-- ==== Proof.KernelChain.lean ====
/-
  The accumulator along the grid, and the array the region leaves.

  The 16 grid points are walked row by row: point t is tile (t / 4, t mod 4). At point t the body reads rows 128 (t / 4) … of the two
  first-half matrices and rows 128 (t mod 4) … of the two second-half matrices, so its step adds to the accumulator exactly the sum
  over that tile of the masked squared differences. The accumulator is reset at t mod 4 = 0, so after point 4 i + 3 it holds
  0 plus the four tile sums of row i of the grid; that point spreads it over block i of the [4, 8, 128] output, the only points that
  write the output back, and their four blocks tile it. So the output array ends holding, at (i, ·, ·), the sum of row i's tiles.
-/
import proofs.«147146_j47674136986059_2_alg».proof.Proof.Gen.KernelIdeal.Frame
import proofs.«147146_j47674136986059_2_alg».proof.Proof.Spec
import proofs.«147146_j47674136986059_2_alg».proof.Proof.KernelPay
import proofs.«147146_j47674136986059_2_alg».proof.Proof.KernelCases
import Idealize.ShloMosaic.Lib.ValueIdx
import Idealize.ShloMosaic.Lib.Pipeline.Value
import Idealize.ShloMosaic.PureOps.Ideal.Laws

set_option maxRecDepth 16384

noncomputable section

namespace Cert.KernelIdeal.ChainValue

open Cert.KernelIdeal Cert.KernelIdeal.Gen
open Idealize.ShloMosaic Idealize.ShloMosaic.TcCoe Idealize.SL.Sem Idealize.ShloMosaic.ValueIdx Idealize.ShloMosaic.Pipeline
open Cert.PairRel Cert.LibTileSum Cert.KernelIdeal.CaseValue Cert.KernelIdeal.PayValue

/-! ### Two congruences -/

theorem sqOf_congr {d d' : Prop} [Decidable d] [Decidable d'] (h : d ↔ d') {s s' t t' : EReal} (hs : s = s') (ht : t = t') :
    sqOf d s t = sqOf d' s' t' := by
  unfold sqOf
  rw [if_congr h rfl hs, if_congr h rfl ht]

theorem scoreRows_congr {a a' b b' w w' : Fin 128 → EReal} {c c' : EReal} (ha : a = a') (hb : b = b') (hw : w = w') (hc : c = c') :
    scoreRows a b w c = scoreRows a' b' w' c' := by
  subst ha; subst hb; subst hw; subst hc; rfl

/-! ### The index maps over the grid -/

/-- Point t is tile (t / 4, t mod 4): the first-half windows follow t / 4, the second-half windows t mod 4, the weight and bias
    windows stay, the output window follows t / 4. -/
theorem idx_facts : ∀ t : Fin cfg0.N,
    (win0_0.index t (0 : Fin 2) = t.val / 4 ∧ win0_0.index t (1 : Fin 2) = 0)
    ∧ (win0_1.index t (0 : Fin 2) = t.val % 4 ∧ win0_1.index t (1 : Fin 2) = 0)
    ∧ (win0_2.index t (0 : Fin 2) = t.val / 4 ∧ win0_2.index t (1 : Fin 2) = 0)
    ∧ (win0_3.index t (0 : Fin 2) = t.val % 4 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 3) = t.val / 4 ∧ win0_6.index t (1 : Fin 3) = 0 ∧ win0_6.index t (2 : Fin 3) = 0)
    ∧ ((grid0.coords t 0).val = t.val / 4 ∧ (grid0.coords t 1).val = t.val % 4) :=
  (by decide +kernel : ∀ t : Fin grid0.N, _)

/-- Every block of the output is the block of some point that writes it back. -/
theorem onto6 : ∀ q : Fin 4, ∃ t : Fin cfg0.N, (cfg0.win 6).flush t = true ∧ win0_6.index t = ![q.val, 0, 0] :=
  (by decide +kernel : ∀ q : Fin 4, ∃ t : Fin grid0.N, (cfg0.win 6).flush t = true ∧ win0_6.index t = ![q.val, 0, 0])

variable (m : (ℓ : Loc nD τ sig) → Buf (Elt Ideal) ℓ) (c : Dev nD)

/-! ### The six arrays the region reads, and its blocks of them -/

abbrev At : Mat 512 128 := V m c main_v13
abbrev Bt : Mat 512 128 := V m c main_v14
abbrev As : Mat 512 128 := V m c main_v18
abbrev Bs : Mat 512 128 := V m c main_v19
/-- The output weights. -/
def wv : Fin 128 → EReal := fun h => V m c main_v20 (ix2 (0 : Fin 1) h)
/-- The output bias. -/
def cv : EReal := V m c main_v21 (ix2 (0 : Fin 1) (0 : Fin 1))

/-- Window 0's block at point t, entry (p, h): row 128 · (t / 4) + p of its array. -/
theorem blk0 (t : Fin cfg0.N) (p h : Fin 128) :
    (iblk m c 0 t : Vec Ideal S128x128 .f32) (ix2 p h)
      = V m c main_v13 (ix2 (blk h512 ⟨t.val / 4 % 4, Nat.mod_lt _ (by decide)⟩ p) h) := by
  have hN : t.val < 16 := lt_of_lt_of_eq t.isLt (show cfg0.N = 16 from N_0)
  have e0 := (idx_facts t).1.1
  have e1 := (idx_facts t).1.2
  unfold iblk
  rw [View.read_apply]
  show V m c main_v13 _ = V m c main_v13 _
  refine congrArg _ (funext fun a => Fin.ext ?_)
  match a with
  | ⟨0, _⟩ =>
    show win0_0.index t (0 : Fin 2) * 128 + 1 * p.val = 128 * (t.val / 4 % 4) + p.val
    rw [e0]; omega
  | ⟨1, _⟩ =>
    show win0_0.index t (1 : Fin 2) * 128 + 1 * h.val = h.val
    rw [e1]; omega

/-- Window 1's block at point t, entry (p, h): row 128 · (t % 4) + p of its array. -/
theorem blk1 (t : Fin cfg0.N) (p h : Fin 128) :
    (iblk m c 1 t : Vec Ideal S128x128 .f32) (ix2 p h)
      = V m c main_v14 (ix2 (blk h512 ⟨t.val % 4, Nat.mod_lt _ (by decide)⟩ p) h) := by
  have hN : t.val < 16 := lt_of_lt_of_eq t.isLt (show cfg0.N = 16 from N_0)
  have e0 := (idx_facts t).2.1.1
  have e1 := (idx_facts t).2.1.2
  unfold iblk
  rw [View.read_apply]
  show V m c main_v14 _ = V m c main_v14 _
  refine congrArg _ (funext fun a => Fin.ext ?_)
  match a with
  | ⟨0, _⟩ =>
    show win0_1.index t (0 : Fin 2) * 128 + 1 * p.val = 128 * (t.val % 4) + p.val
    rw [e0]; omega
  | ⟨1, _⟩ =>
    show win0_1.index t (1 : Fin 2) * 128 + 1 * h.val = h.val
    rw [e1]; omega

/-- Window 2's block at point t, entry (p, h): row 128 · (t / 4) + p of its array. -/
theorem blk2 (t : Fin cfg0.N) (p h : Fin 128) :
    (iblk m c 2 t : Vec Ideal S128x128 .f32) (ix2 p h)
      = V m c main_v18 (ix2 (blk h512 ⟨t.val / 4 % 4, Nat.mod_lt _ (by decide)⟩ p) h) := by
  have hN : t.val < 16 := lt_of_lt_of_eq t.isLt (show cfg0.N = 16 from N_0)
  have e0 := (idx_facts t).2.2.1.1
  have e1 := (idx_facts t).2.2.1.2
  unfold iblk
  rw [View.read_apply]
  show V m c main_v18 _ = V m c main_v18 _
  refine congrArg _ (funext fun a => Fin.ext ?_)
  match a with
  | ⟨0, _⟩ =>
    show win0_2.index t (0 : Fin 2) * 128 + 1 * p.val = 128 * (t.val / 4 % 4) + p.val
    rw [e0]; omega
  | ⟨1, _⟩ =>
    show win0_2.index t (1 : Fin 2) * 128 + 1 * h.val = h.val
    rw [e1]; omega

/-- Window 3's block at point t, entry (p, h): row 128 · (t % 4) + p of its array. -/
theorem blk3 (t : Fin cfg0.N) (p h : Fin 128) :
    (iblk m c 3 t : Vec Ideal S128x128 .f32) (ix2 p h)
      = V m c main_v19 (ix2 (blk h512 ⟨t.val % 4, Nat.mod_lt _ (by decide)⟩ p) h) := by
  have hN : t.val < 16 := lt_of_lt_of_eq t.isLt (show cfg0.N = 16 from N_0)
  have e0 := (idx_facts t).2.2.2.1.1
  have e1 := (idx_facts t).2.2.2.1.2
  unfold iblk
  rw [View.read_apply]
  show V m c main_v19 _ = V m c main_v19 _
  refine congrArg _ (funext fun a => Fin.ext ?_)
  match a with
  | ⟨0, _⟩ =>
    show win0_3.index t (0 : Fin 2) * 128 + 1 * p.val = 128 * (t.val % 4) + p.val
    rw [e0]; omega
  | ⟨1, _⟩ =>
    show win0_3.index t (1 : Fin 2) * 128 + 1 * h.val = h.val
    rw [e1]; omega

/-- The weight window's block is the weight row at every point. -/
theorem blk4 (t : Fin cfg0.N) (h : Fin 128) :
    (iblk m c 4 t : Vec Ideal S1x128 .f32) (ix2 (0 : Fin 1) h) = wv m c h := by
  have e0 := (idx_facts t).2.2.2.2.1.1
  have e1 := (idx_facts t).2.2.2.2.1.2
  unfold iblk wv
  rw [View.read_apply]
  show V m c main_v20 _ = V m c main_v20 _
  refine congrArg _ (funext fun a => Fin.ext ?_)
  match a with
  | ⟨0, _⟩ =>
    show win0_4.index t (0 : Fin 2) * 1 + 1 * 0 = 0
    rw [e0]
  | ⟨1, _⟩ =>
    show win0_4.index t (1 : Fin 2) * 128 + 1 * h.val = h.val
    rw [e1]; omega

/-- The bias window's block is the bias at every point. -/
theorem blk5 (t : Fin cfg0.N) :
    (iblk m c 5 t : Vec Ideal S1x1 .f32) (ix2 (0 : Fin 1) (0 : Fin 1)) = cv m c := by
  have e0 := (idx_facts t).2.2.2.2.2.1.1
  have e1 := (idx_facts t).2.2.2.2.2.1.2
  unfold iblk cv
  rw [View.read_apply]
  show V m c main_v21 _ = V m c main_v21 _
  refine congrArg _ (funext fun a => Fin.ext ?_)
  match a with
  | ⟨0, _⟩ =>
    show win0_5.index t (0 : Fin 2) * 1 + 1 * 0 = 0
    rw [e0]
  | ⟨1, _⟩ =>
    show win0_5.index t (1 : Fin 2) * 1 + 1 * 0 = 0
    rw [e1]

/-! ### One step adds the point's tile -/

/-- The step at point t adds the sum over tile (t / 4, t mod 4) of the masked squared differences. -/
theorem step_apply (t : Fin cfg0.N) (acc : Vec Ideal S1x1 .f32) (y : S1x1.Idx) :
    step (F := Ideal) (grid0.coords t) (iblk m c 0 t) (iblk m c 1 t) (iblk m c 2 t) (iblk m c 3 t) (iblk m c 4 t) (iblk m c 5 t) acc y
      = acc y + tileAt (At m c) (Bt m c) (As m c) (Bs m c) (wv m c) (cv m c) t.val := by
  have hN : t.val < 16 := lt_of_lt_of_eq t.isLt (show cfg0.N = 16 from N_0)
  have ec0 := (idx_facts t).2.2.2.2.2.2.2.1
  have ec1 := (idx_facts t).2.2.2.2.2.2.2.2
  unfold step
  refine (pay1_apply (grid0.coords t 0).val (grid0.coords t 1).val (by omega) (by omega) (iblk m c 4 t) (iblk m c 5 t) _ _ _ zero16 acc
    (fun p h => (iblk m c 2 t : Vec Ideal S128x128 .f32) (ix2 p h)) (fun q h => (iblk m c 3 t : Vec Ideal S128x128 .f32) (ix2 q h))
    (fun p q h => pay7_apply _ _ p q h)
    (fun p q => scoreRows (fun h => (iblk m c 0 t : Vec Ideal S128x128 .f32) (ix2 p h)) (fun h => (iblk m c 1 t : Vec Ideal S128x128 .f32) (ix2 q h))
      (fun h => (iblk m c 4 t : Vec Ideal S1x128 .f32) (ix2 (0 : Fin 1) h)) ((iblk m c 5 t : Vec Ideal S1x1 .f32) (ix2 (0 : Fin 1) (0 : Fin 1))))
    (fun p q => pay6_apply _ _ _ _ p q) y).trans ?_
  refine congrArg (acc y + ·) ?_
  unfold tileAt tile
  refine Finset.sum_congr rfl fun p _ => Finset.sum_congr rfl fun q _ => ?_
  rw [sqDiff_eq_sqOf]
  have hp := p.isLt; have hq := q.isLt
  refine sqOf_congr ?_ ?_ ?_
  · show 128 * (grid0.coords t 0).val + p.val = 128 * (grid0.coords t 1).val + q.val
      ↔ 128 * (t.val / 4 % 4) + p.val = 128 * (t.val % 4) + q.val
    rw [ec0, ec1]
    constructor <;> intro hh <;> omega
  · unfold score
    exact scoreRows_congr (funext fun h => blk2 m c t p h) (funext fun h => blk3 m c t q h) (funext fun h => blk4 m c t h) (blk5 m c t)
  · unfold score
    exact scoreRows_congr (funext fun h => blk0 m c t p h) (funext fun h => blk1 m c t q h) (funext fun h => blk4 m c t h) (blk5 m c t)

/-! ### The accumulator after each point -/

/-- The accumulator a point that resets it leaves. -/
def resetAt (n : ℕ) (h : n < cfg0.N) : Vec Ideal S1x1 .f32 :=
  step (F := Ideal) (grid0.coords ⟨n, h⟩) (iblk m c 0 ⟨n, h⟩) (iblk m c 1 ⟨n, h⟩) (iblk m c 2 ⟨n, h⟩) (iblk m c 3 ⟨n, h⟩) (iblk m c 4 ⟨n, h⟩) (iblk m c 5 ⟨n, h⟩) (k0_pay3 (F := Ideal))

/-- The accumulator a point leaves from the one it finds. -/
def stepAt (n : ℕ) (h : n < cfg0.N) (acc : Vec Ideal S1x1 .f32) : Vec Ideal S1x1 .f32 :=
  step (F := Ideal) (grid0.coords ⟨n, h⟩) (iblk m c 0 ⟨n, h⟩) (iblk m c 1 ⟨n, h⟩) (iblk m c 2 ⟨n, h⟩) (iblk m c 3 ⟨n, h⟩) (iblk m c 4 ⟨n, h⟩) (iblk m c 5 ⟨n, h⟩) acc

theorem scratch_reset (n : ℕ) (h : n < cfg0.N) (h0 : n % 4 = 0) : (outsAt0 m c n h).2 = resetAt m c n h := by
  have h1 : ¬n % 4 = 3 := by omega
  exact (congrArg Prod.snd (outsAt0_A m c ⟨n, h⟩ h0 h1)).trans (sout_A (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) (ms0_5 ⟨n, h⟩) (hs0_5 ⟨n, h⟩) (ms0_6 ⟨n, h⟩) (hs0_6 ⟨n, h⟩) scM0_0 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩) (iblk m c 3 ⟨n, h⟩) (iblk m c 4 ⟨n, h⟩) (iblk m c 5 ⟨n, h⟩))

theorem scratch_step (n : ℕ) (h : n + 1 < cfg0.N) (h0 : ¬(n + 1) % 4 = 0) :
    (outsAt0 m c (n + 1) h).2 = stepAt m c (n + 1) h ((outsAt0 m c n (Nat.lt_of_succ_lt h)).2) := by
  by_cases h1 : (n + 1) % 4 = 3
  · exact (congrArg Prod.snd (outsAt0_C m c ⟨n + 1, h⟩ h0 h1)).trans
      (sout_C (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) ((outsAt0 m c n (Nat.lt_of_succ_lt h)).2))
  · exact (congrArg Prod.snd (outsAt0_B m c ⟨n + 1, h⟩ h0 h1)).trans
      (sout_B (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) (ms0_5 ⟨n + 1, h⟩) (hs0_5 ⟨n + 1, h⟩) (ms0_6 ⟨n + 1, h⟩) (hs0_6 ⟨n + 1, h⟩) scM0_0 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (iblk m c 3 ⟨n + 1, h⟩) (iblk m c 4 ⟨n + 1, h⟩) (iblk m c 5 ⟨n + 1, h⟩) ((outsAt0 m c n (Nat.lt_of_succ_lt h)).2))

/-- After point t the accumulator holds the reset value plus the tile sums of the points of t's row of the grid up to t. -/
theorem scratch_at (t : ℕ) (ht : t < cfg0.N) (y : S1x1.Idx) :
    (outsAt0 m c t ht).2 y
      = k0_pay3 (F := Ideal) y
        + ∑ s ∈ Finset.range (t % 4 + 1), tileAt (At m c) (Bt m c) (As m c) (Bs m c) (wv m c) (cv m c) (4 * (t / 4) + s) := by
  have hN : cfg0.N = 16 := N_0
  have h' : 4 * (t / 4) + t % 4 < cfg0.N := by omega
  refine (congrFun (Pipeline.eq_accAt_of_mod (N := cfg0.N) (fun n h => (outsAt0 m c n h).2) 4 (resetAt m c) (stepAt m c)
    (scratch_reset m c) (scratch_step m c) (by decide) t ht h') y).trans ?_
  exact Pipeline.accAt_add_apply (ι := S1x1.Idx) (β := EReal) (resetAt m c) (stepAt m c) (k0_pay3 (F := Ideal))
    (fun n _ => tileAt (At m c) (Bt m c) (As m c) (Bs m c) (wv m c) (cv m c) n) (4 * (t / 4)) 3
    (fun h i => step_apply m c ⟨_, h⟩ _ i) (fun n h acc i _ _ => step_apply m c ⟨n, h⟩ acc i) (t % 4) (by omega) h' y

/-! ### The output array -/

/-- The sum of row i of the grid of tiles, from the reset value. -/
def accRow (i : ℕ) : EReal :=
  k0_pay3 (F := Ideal) (ix2 (0 : Fin 1) (0 : Fin 1))
    + ∑ s ∈ Finset.range 4, tileAt (At m c) (Bt m c) (As m c) (Bs m c) (wv m c) (cv m c) (4 * i + s)

/-- What the output array ends holding: at (i, ·, ·) the sum of row i of the grid of tiles. -/
def outArr : Buf (Elt Ideal) (((cfg0.win 6).arr.view.loc (c.tc : Thread nD τ))) := fun idx => accRow m c (idx 0).val

set_option maxHeartbeats 1000000 in
/-- At a point that ends a row of tiles the output block is filled with that row's sum. -/
theorem out_at (t : Fin cfg0.N) (h3 : t.val % 4 = 3) (y : S1x8x128.Idx) :
    (outsAt0 m c t.val t.isLt).1 y = accRow m c (t.val / 4) := by
  have h0 : ¬t.val % 4 = 0 := by omega
  have e := outsAt0_C m c t h0 h3
  have e1 : (outsAt0 m c t.val t.isLt).1 = k0_pay2 (F := Ideal) ((outsAt0 m c t.val t.isLt).2) :=
    (congrArg Prod.fst e).trans ((out_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hh => h0 ((hcond0_0 t).mp hh)) ((hcond0_1 t).mpr h3) (iblk m c 0 t) (iblk m c 1 t) (iblk m c 2 t) (iblk m c 3 t) (iblk m c 4 t) (iblk m c 5 t) ((outsAt0 m c (t.val - 1) (Nat.lt_of_le_of_lt (Nat.sub_le _ _) t.isLt)).2)).trans
      (congrArg (k0_pay2 (F := Ideal)) ((sout_C (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun hh => h0 ((hcond0_0 t).mp hh)) ((hcond0_1 t).mpr h3) (iblk m c 0 t) (iblk m c 1 t) (iblk m c 2 t) (iblk m c 3 t) (iblk m c 4 t) (iblk m c 5 t) ((outsAt0 m c (t.val - 1) (Nat.lt_of_le_of_lt (Nat.sub_le _ _) t.isLt)).2)).symm.trans (congrArg Prod.snd e).symm)))
  rw [e1]
  unfold k0_pay2
  refine (pay2_apply _ _ _ y).trans ?_
  rw [scratch_at m c t.val t.isLt, h3]
  rfl

/-- An index of the output array is in point t's block iff each coordinate is in the block's range on its axis. -/
theorem mem_blk6 (t : Fin cfg0.N) (i : S4x8x128.Idx) :
    i ∈ ((cfg0.win 6).blk t).view.set
      ↔ ∀ a : Fin 3, win0_6.index t a * S1x8x128.size a ≤ (i a).val ∧ (i a).val < win0_6.index t a * S1x8x128.size a + S1x8x128.size a := by
  show i ∈ ((View.whole main_v22).slice (win0_6.rect t)).set ↔ _
  rw [View.set_slice_whole, Rect.mem_set_unit]
  exact Iff.rfl

/-- What a point that writes the output back writes is its block of the row sums. -/
theorem flushed_eq (t : Fin cfg0.N) (hf : (cfg0.win 6).flush t = true) :
    (dats (F := Ideal) m 0 c).flushed 6 t = ((cfg0.win 6).blk t).view.read (Elt Ideal) (outArr m c) := by
  have h3 : t.val % 4 = 3 := (flush0_6 t).mp hf
  have e60 := (idx_facts t).2.2.2.2.2.2.1.1
  show (cfg0.win 6).cut (grid0.coords t) ((dats (F := Ideal) m 0 c).after 6 t) = _
  rw [after0_6]
  funext y
  show (outsAt0 m c t.val t.isLt).1 y = outArr m c (((cfg0.win 6).blk t).view.emb y)
  rw [out_at m c t h3 y]
  unfold outArr
  have hy : (y 0).val < 1 := (y 0).isLt
  have e : ((((cfg0.win 6).blk t).view.emb y) 0).val = t.val / 4 := by
    show win0_6.index t (0 : Fin 3) * 1 + 1 * (y 0).val = t.val / 4
    rw [e60]; omega
  rw [e]

/-- The output array after the region: the row sums. -/
theorem final6 : (dats (F := Ideal) m 0 c).arrAt 6 cfg0.N = outArr m c :=
  (dats (F := Ideal) m 0 c).arrAt_eq_of_cover 6 (outArr m c) (flushed_eq m c) fun i => by
    have hi0 : (i 0).val < 4 := (i 0).isLt
    have hi1 : (i 1).val < 8 := (i 1).isLt
    have hi2 : (i 2).val < 128 := (i 2).isLt
    obtain ⟨t, hf, ht⟩ := onto6 ⟨(i 0).val, hi0⟩
    refine ⟨t, hf, ?_⟩
    rw [mem_blk6]
    have q0 : win0_6.index t (0 : Fin 3) = (i 0).val := congrFun ht 0
    have q1 : win0_6.index t (1 : Fin 3) = 0 := congrFun ht 1
    have q2 : win0_6.index t (2 : Fin 3) = 0 := congrFun ht 2
    intro a
    match a with
    | ⟨0, _⟩ => show win0_6.index t (0 : Fin 3) * 1 ≤ (i 0).val ∧ (i 0).val < win0_6.index t (0 : Fin 3) * 1 + 1; omega
    | ⟨1, _⟩ => show win0_6.index t (1 : Fin 3) * 8 ≤ (i 1).val ∧ (i 1).val < win0_6.index t (1 : Fin 3) * 8 + 8; omega
    | ⟨2, _⟩ => show win0_6.index t (2 : Fin 3) * 128 ≤ (i 2).val ∧ (i 2).val < win0_6.index t (2 : Fin 3) * 128 + 128; omega

end Cert.KernelIdeal.ChainValue

end
-- ==== Proof.KernelHost.lean ====
/-
  The arrays the region reads, as functions of the arguments.

  Before the region the host projects the teacher's and the student's features to 128 columns (a product plus a bias row), cuts the
  256 × 128 first-layer weights into their upper and lower 128 rows, and multiplies each projection by each half, adding the layer's
  bias to the upper product: these are the four matrices of half-layer pre-activations. Read at an entry, a product of a 512 × 128 by a
  128 × 128 matrix is the sum over the 128 contracted indices, a row slice shifts the row index by its offset, and a bias row repeated
  down the rows reads the bias at the column. The output weights [128, 1] are reshaped to a row, the output bias [1] to 1 × 1.
-/
import proofs.«147146_j47674136986059_2_alg».proof.Proof.Gen.KernelIdeal.Frame
import proofs.«147146_j47674136986059_2_alg».proof.Proof.Spec
import proofs.«147146_j47674136986059_2_alg».proof.Proof.KernelChain
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.HostValue

open Cert.KernelIdeal Cert.KernelIdeal.Gen
open Idealize.ShloMosaic Idealize.ShloMosaic.TcCoe Idealize.SL.Sem Idealize.ShloMosaic.ValueIdx Idealize.ShloMosaic.Pipeline
open Idealize.ShloMosaic.StableHlo
open Cert.PairRel Cert.LibTileSum Cert.KernelIdeal.ChainValue

/-! ### A 512 × 128 by 128 × 128 product, a row slice, a bias row, read at an entry -/

theorem lhs_0 (i : S512x128.Idx) (q : dot_S512x128_S128x128_S512x128_1_0_0_1_n_n.contr.Idx) : (dot_S512x128_S128x128_S512x128_1_0_0_1_n_n.lhsIdx i q 0).val = (i 0).val := by
  unfold DotDims.lhsIdx
  rw [dif_neg (show ¬(0 : Fin S512x128.rank) ∈ dot_S512x128_S128x128_S512x128_1_0_0_1_n_n.lhsBatch by decide), dif_pos (show (0 : Fin S512x128.rank) ∈ dot_S512x128_S128x128_S512x128_1_0_0_1_n_n.lhsNonContracting by decide)]
  rfl
theorem lhs_1 (i : S512x128.Idx) (q : dot_S512x128_S128x128_S512x128_1_0_0_1_n_n.contr.Idx) : (dot_S512x128_S128x128_S512x128_1_0_0_1_n_n.lhsIdx i q 1).val = (q ⟨0, by decide⟩).val :=
  dot_S512x128_S128x128_S512x128_1_0_0_1_n_n.lhsIdx_val_of_single rfl i q
theorem rhs_0 (i : S512x128.Idx) (q : dot_S512x128_S128x128_S512x128_1_0_0_1_n_n.contr.Idx) : (dot_S512x128_S128x128_S512x128_1_0_0_1_n_n.rhsIdx i q 0).val = (q ⟨0, by decide⟩).val :=
  dot_S512x128_S128x128_S512x128_1_0_0_1_n_n.rhsIdx_val_of_single rfl i q
theorem rhs_1 (i : S512x128.Idx) (q : dot_S512x128_S128x128_S512x128_1_0_0_1_n_n.contr.Idx) : (dot_S512x128_S128x128_S512x128_1_0_0_1_n_n.rhsIdx i q 1).val = (i 1).val := by
  unfold DotDims.rhsIdx
  rw [dif_neg (show ¬(1 : Fin S128x128.rank) ∈ dot_S512x128_S128x128_S512x128_1_0_0_1_n_n.rhsBatch by decide), dif_pos (show (1 : Fin S128x128.rank) ∈ dot_S512x128_S128x128_S512x128_1_0_0_1_n_n.rhsNonContracting by decide)]
  rfl

/-- Entry i of the product: the sum over the contracted index k of left (row, k) times right (k, column). -/
theorem dot_apply (l : FVec Ideal S512x128 .f32) (r : FVec Ideal S128x128 .f32) (i : S512x128.Idx) :
    Host.dotGeneral (F := Ideal) dot_S512x128_S128x128_S512x128_1_0_0_1_n_n none l r i = ∑ k : Fin 128, l (ix2 (i 0) k) * r (ix2 k (i 1)) := by
  simp only [Host.dotGeneral]
  rw [Ideal.dotGeneral_apply, ← Equiv.sum_comp (ValueIdx.contrEquiv1 dot_S512x128_S128x128_S512x128_1_0_0_1_n_n 128 rfl rfl).symm]
  refine Finset.sum_congr rfl fun k _ => ?_
  have hk := ValueIdx.contrEquiv1_symm_val dot_S512x128_S128x128_S512x128_1_0_0_1_n_n 128 rfl rfl k
  have el : dot_S512x128_S128x128_S512x128_1_0_0_1_n_n.lhsIdx i ((ValueIdx.contrEquiv1 dot_S512x128_S128x128_S512x128_1_0_0_1_n_n 128 rfl rfl).symm k) = ix2 (i 0) k := funext fun a => Fin.ext (by
    match a with
    | ⟨0, _⟩ => exact lhs_0 _ _
    | ⟨1, _⟩ => exact (lhs_1 _ _).trans hk)
  have er : dot_S512x128_S128x128_S512x128_1_0_0_1_n_n.rhsIdx i ((ValueIdx.contrEquiv1 dot_S512x128_S128x128_S512x128_1_0_0_1_n_n 128 rfl rfl).symm k) = ix2 k (i 1) := funext fun a => Fin.ext (by
    match a with
    | ⟨0, _⟩ => exact (rhs_0 _ _).trans hk
    | ⟨1, _⟩ => exact rhs_1 _ _)
  exact congrArg₂ (· * ·) (congrArg l el) (congrArg r er)

/-- The upper 128 rows of the first-layer weights. -/
theorem upper_apply (W : FVec Ideal S256x128 .f32) (k h : Fin 128) :
    extractStridedSlice S128x128 ![0, 0] W slices_S256x128_S128x128_0_0 (ix2 k h) = W (ix2 (blk h256 0 k) h) :=
  extractStridedSlice_apply _ W _ (ix2 k h) (ix2 (blk h256 0 k) h) (fun a => by
    match a with
    | ⟨0, _⟩ => show 128 * 0 + k.val = 0 + k.val; omega
    | ⟨1, _⟩ => show h.val = 0 + h.val; omega)

/-- The lower 128 rows of the first-layer weights. -/
theorem lower_apply (W : FVec Ideal S256x128 .f32) (k h : Fin 128) :
    extractStridedSlice S128x128 ![128, 0] W slices_S256x128_S128x128_128_0 (ix2 k h) = W (ix2 (blk h256 1 k) h) :=
  extractStridedSlice_apply _ W _ (ix2 k h) (ix2 (blk h256 1 k) h) (fun a => by
    match a with
    | ⟨0, _⟩ => show 128 * 1 + k.val = 128 + k.val; omega
    | ⟨1, _⟩ => show h.val = 0 + h.val; omega)

/-- A bias vector made a row and repeated down 512 rows: entry i is the bias at i's column. -/
theorem bias_apply (b : FVec Ideal S128 .f32) (i : S512x128.Idx) :
    broadcastInDim S512x128 ![0, 1] bcast_S1x128_S512x128_0_1 (broadcastInDim S1x128 ![1] bcast_S128_S1x128_1 b) i = b (ix1 (i 1)) := by
  refine (broadcastInDim_apply _ bcast_S1x128_S512x128_0_1 _ i (ix2 (0 : Fin 1) (i 1)) (fun a => by
    match a with
    | ⟨0, _⟩ => show 0 = if (1 : Nat) = 1 then 0 else (i 0).val; rw [if_pos rfl]
    | ⟨1, _⟩ => show (i 1).val = if (128 : Nat) = 1 then 0 else (i 1).val; rw [if_neg (by decide)])).trans ?_
  exact broadcastInDim_apply _ bcast_S128_S1x128_1 b (ix2 (0 : Fin 1) (i 1)) (ix1 (i 1)) (fun a => by
    match a with
    | ⟨0, _⟩ => show (i 1).val = if (128 : Nat) = 1 then 0 else (i 1).val; rw [if_neg (by decide)])

variable (m : (ℓ : Loc nD τ sig) → Buf (Elt Ideal) ℓ) (c : Dev nD)

/-! ### The arguments -/

/-- Argument 0 of the program, as an array of extended reals. -/
abbrev argV0 : FVec Ideal S512x2048 .f32 := m ((c.tc : Thread nD τ).loc main_arg0)
/-- Argument 1 of the program, as an array of extended reals. -/
abbrev argV1 : FVec Ideal S512x768 .f32 := m ((c.tc : Thread nD τ).loc main_arg1)
/-- Argument 2 of the program, as an array of extended reals. -/
abbrev argV2 : FVec Ideal S2048x128 .f32 := m ((c.tc : Thread nD τ).loc main_arg2)
/-- Argument 3 of the program, as an array of extended reals. -/
abbrev argV3 : FVec Ideal S128 .f32 := m ((c.tc : Thread nD τ).loc main_arg3)
/-- Argument 4 of the program, as an array of extended reals. -/
abbrev argV4 : FVec Ideal S768x128 .f32 := m ((c.tc : Thread nD τ).loc main_arg4)
/-- Argument 5 of the program, as an array of extended reals. -/
abbrev argV5 : FVec Ideal S128 .f32 := m ((c.tc : Thread nD τ).loc main_arg5)
/-- Argument 6 of the program, as an array of extended reals. -/
abbrev argV6 : FVec Ideal S256x128 .f32 := m ((c.tc : Thread nD τ).loc main_arg6)
/-- Argument 7 of the program, as an array of extended reals. -/
abbrev argV7 : FVec Ideal S128 .f32 := m ((c.tc : Thread nD τ).loc main_arg7)
/-- Argument 8 of the program, as an array of extended reals. -/
abbrev argV8 : FVec Ideal S128x1 .f32 := m ((c.tc : Thread nD τ).loc main_arg8)
/-- Argument 9 of the program, as an array of extended reals. -/
abbrev argV9 : FVec Ideal S1 .f32 := m ((c.tc : Thread nD τ).loc main_arg9)

/-! ### The projected features -/

/-- The teacher's features projected to 128 columns. -/
def tp : FVec Ideal S512x128 .f32 :=
  addf (Host.dotGeneral dot_S512x2048_S2048x128_S512x128_1_0_0_1_n_n none (argV0 m c) (argV2 m c))
    (broadcastInDim S512x128 ![0, 1] bcast_S1x128_S512x128_0_1 (broadcastInDim S1x128 ![1] bcast_S128_S1x128_1 (argV3 m c)))

/-- The student's features projected to 128 columns. -/
def sp : FVec Ideal S512x128 .f32 :=
  addf (Host.dotGeneral dot_S512x768_S768x128_S512x128_1_0_0_1_n_n none (argV1 m c) (argV4 m c))
    (broadcastInDim S512x128 ![0, 1] bcast_S1x128_S512x128_0_1 (broadcastInDim S1x128 ![1] bcast_S128_S1x128_1 (argV5 m c)))

/-- The first half-layer applied to a projection, as the host computes it. -/
def hostFirst (f : FVec Ideal S512x128 .f32) : FVec Ideal S512x128 .f32 :=
  addf (Host.dotGeneral dot_S512x128_S128x128_S512x128_1_0_0_1_n_n none f (extractStridedSlice S128x128 ![0, 0] (argV6 m c) slices_S256x128_S128x128_0_0))
    (broadcastInDim S512x128 ![0, 1] bcast_S1x128_S512x128_0_1 (broadcastInDim S1x128 ![1] bcast_S128_S1x128_1 (argV7 m c)))

/-- The second half-layer applied to a projection, as the host computes it. -/
def hostSecond (f : FVec Ideal S512x128 .f32) : FVec Ideal S512x128 .f32 :=
  Host.dotGeneral dot_S512x128_S128x128_S512x128_1_0_0_1_n_n none f (extractStridedSlice S128x128 ![128, 0] (argV6 m c) slices_S256x128_S128x128_128_0)

theorem hostFirst_eq (f : FVec Ideal S512x128 .f32) :
    (hostFirst m c f : Mat 512 128) = firstHalf f (argV6 m c) (fun h => (argV7 m c) (ix1 h)) := by
  funext i
  unfold hostFirst firstHalf
  refine (addf_apply _ _ _).trans (congrArg₂ (· + ·) ?_ (bias_apply _ i))
  refine (dot_apply _ _ i).trans (Finset.sum_congr rfl fun k _ => congrArg₂ (· * ·) rfl ?_)
  exact upper_apply _ k (i 1)

theorem hostSecond_eq (f : FVec Ideal S512x128 .f32) :
    (hostSecond m c f : Mat 512 128) = secondHalf f (argV6 m c) := by
  funext i
  unfold hostSecond secondHalf
  refine (dot_apply _ _ i).trans (Finset.sum_congr rfl fun k _ => congrArg₂ (· * ·) rfl ?_)
  exact lower_apply _ k (i 1)

/-! ### What the region finds in its six arrays -/

theorem At_eq : At m c = hostFirst m c (tp m c) := by
  show StableHlo.after hostOps0 (fun b => m (c, b)) (Proc.devRef .tc main_v13) = _
  after_results
  rfl

theorem Bt_eq : Bt m c = hostSecond m c (tp m c) := by
  show StableHlo.after hostOps0 (fun b => m (c, b)) (Proc.devRef .tc main_v14) = _
  after_results
  rfl

theorem As_eq : As m c = hostFirst m c (sp m c) := by
  show StableHlo.after hostOps0 (fun b => m (c, b)) (Proc.devRef .tc main_v18) = _
  after_results
  rfl

theorem Bs_eq : Bs m c = hostSecond m c (sp m c) := by
  show StableHlo.after hostOps0 (fun b => m (c, b)) (Proc.devRef .tc main_v19) = _
  after_results
  rfl

theorem wv_eq : wv m c = fun h => (argV8 m c) (ix2 h (0 : Fin 1)) := by
  funext h
  unfold wv
  have e : (V m c main_v20 : S1x128.Idx → EReal) = shapeCast S1x128 (argV8 m c) shapeCasts_S128x1_S1x128 := by
    show StableHlo.after hostOps0 (fun b => m (c, b)) (Proc.devRef .tc main_v20) = _
    after_results
    rfl
  rw [e]
  exact shapeCast_apply _ shapeCasts_S128x1_S1x128 (ix2 (0 : Fin 1) h) (ix2 h (0 : Fin 1)) (by
    rw [Shape.rowMajor_val_two, Shape.rowMajor_val_two]
    show h.val * 1 + 0 = 0 * 128 + h.val
    omega)

theorem cv_eq : cv m c = (argV9 m c) (ix1 (0 : Fin 1)) := by
  unfold cv
  have e : (V m c main_v21 : S1x1.Idx → EReal) = shapeCast S1x1 (argV9 m c) shapeCasts_S1_S1x1 := by
    show StableHlo.after hostOps0 (fun b => m (c, b)) (Proc.devRef .tc main_v21) = _
    after_results
    rfl
  rw [e]
  exact shapeCast_apply _ shapeCasts_S1_S1x1 (ix2 (0 : Fin 1) (0 : Fin 1)) (ix1 (0 : Fin 1)) (by
    rw [Shape.rowMajor_val_one, Shape.rowMajor_val_two]
    show 0 = 0 * 1 + 0
    omega)

end Cert.KernelIdeal.HostValue

end
-- ==== Proof.KernelRun.lean ====
/-
  The kernel's result.

  After the region the host takes entry (i, 0, 0) of each of the four output blocks, sums the four from 0 and divides by 512².
  Entry (i, 0, 0) is the sum of row i of the grid of tiles, from a reset value that is 0; so the result is the sum of all sixteen
  tile sums, which is the double sum over all pairs, divided by 512²: the loss of the region's six arrays.
-/
import proofs.«147146_j47674136986059_2_alg».proof.Proof.Gen.KernelIdeal.Frame
import proofs.«147146_j47674136986059_2_alg».proof.Proof.Spec
import proofs.«147146_j47674136986059_2_alg».proof.Proof.KernelPay
import proofs.«147146_j47674136986059_2_alg».proof.Proof.KernelChain
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.RunValue

open Cert.KernelIdeal Cert.KernelIdeal.Gen
open Idealize.ShloMosaic Idealize.ShloMosaic.TcCoe Idealize.SL.Sem Idealize.ShloMosaic.ValueIdx Idealize.ShloMosaic.Pipeline
open Idealize.ShloMosaic.StableHlo
open Cert.PairRel Cert.LibTileSum Cert.KernelIdeal.ChainValue Cert.KernelIdeal.PayValue

/-- A rank-1 index set is its one coordinate range, -/
def idxEquiv1 {n : ℕ} : (⟨1, ![n]⟩ : Shape).Idx ≃ Fin n where
  toFun i := i 0
  invFun k := ix1 k
  left_inv i := (eq_ix1 i).symm
  right_inv _ := rfl

/-- so a sum over it is the sum over the coordinate. -/
theorem sum_idx1 {M : Type*} [AddCommMonoid M] {n : ℕ} (f : (⟨1, ![n]⟩ : Shape).Idx → M) :
    ∑ i, f i = ∑ k : Fin n, f (ix1 k) :=
  (Equiv.sum_comp (idxEquiv1 (n := n)).symm f).symm

/-- The lines after the region, of any [4, 8, 128] array: entries (k, 0, 0) summed from 0, divided by the literal 512². -/
theorem tail_value (arr : FVec Ideal S4x8x128 .f32) (i : S_.Idx) :
    Host.divf (F := Ideal) (Host.reduceAdd
        (shapeCast S4 (extractStridedSlice S4x1x1 ![0, 0, 0] arr slices_S4x8x128_S4x1x1_0_0_0) shapeCasts_S4x1x1_S4)
        (constant S_ .f32 0x00000000#32) reducesTo_S4_S_d0 h_S_) (constant S_ .f32 0x48800000#32) i
      = Ideal.div (0 + ∑ k : Fin 4, arr (ix3 k (0 : Fin 8) (0 : Fin 128))) (Ideal.ofBits .f32 0x48800000#32) := by
  show Ideal.div (Host.reduceAdd (F := Ideal) _ _ reducesTo_S4_S_d0 h_S_ i) (Ideal.ofBits .f32 0x48800000#32) = _
  refine congrArg (Ideal.div · _) ?_
  simp only [Host.reduceAdd, Ideal.hostReduceAdd_def]
  rw [Ideal.hostReduceAdd_total reducesTo_S4_S_d0 (fun b => b.elim0), sum_idx1]
  refine congrArg₂ (· + ·) Ideal.ofBits_zero_f32 (Finset.sum_congr rfl fun k _ => ?_)
  refine (shapeCast_apply _ shapeCasts_S4x1x1_S4 (ix1 k) (ix3 k (0 : Fin 1) (0 : Fin 1)) (by
    rw [Shape.rowMajor_val_one, Shape.rowMajor_val_three]
    show (k.val * 1 + 0) * 1 + 0 = k.val
    omega)).trans ?_
  exact extractStridedSlice_apply _ arr _ (ix3 k (0 : Fin 1) (0 : Fin 1)) (ix3 k (0 : Fin 8) (0 : Fin 128)) (fun a => by
    match a with
    | ⟨0, _⟩ => show k.val = 0 + k.val; omega
    | ⟨1, _⟩ => show 0 = 0 + 0; rfl
    | ⟨2, _⟩ => show 0 = 0 + 0; rfl)

variable (m : (ℓ : Loc nD τ sig) → Buf (Elt Ideal) ℓ) (ρ : Dev nD → PrngReg) (c : Dev nD)

/-- The loss of the six arrays the region reads. -/
def result : Buf (Elt Ideal) ((c.tc : Thread nD τ).loc main_v26) :=
  fun _ => loss (At m c) (Bt m c) (As m c) (Bs m c) (wv m c) (cv m c)

/-- The four row sums, summed from 0 and divided, are the loss. -/
theorem rows_eq_loss :
    Ideal.div (0 + ∑ k : Fin 4, accRow m c k.val) (Ideal.ofBits .f32 0x48800000#32)
      = loss (At m c) (Bt m c) (As m c) (Bs m c) (wv m c) (cv m c) := by
  unfold accRow loss
  simp only [pay3_apply, zero_add]
  rw [sum_tileAt]

/-- What the lines after the region leave in the result buffer. -/
theorem tail_eq :
    Pipeline.afterTail₀ cfgs (dats (F := Ideal) m) 0 (V0 m) [hostOps1] c main_v26 = result m c := by
  unfold Pipeline.afterTail₀
  show StableHlo.after hostOps1 _ (Proc.devRef .tc main_v26) = _
  after_results
  funext i
  refine (tail_value _ i).trans ?_
  have e := (Pipeline.withArrays_arr spec0 launch0.win.arr_inj c (V0 m c) (fun w => (dats (F := Ideal) m 0 c).arrAt w cfg0.N) 6).trans (final6 m c)
  refine Eq.trans ?_ (rows_eq_loss m c)
  refine congrArg (Ideal.div · _) (congrArg (0 + ·) (Finset.sum_congr rfl fun k _ => ?_))
  exact congrFun e (ix3 k (0 : Fin 8) (0 : Fin 128))

/-- The kernel's run: the result buffer ends at the loss of the region's arrays, the arguments unchanged. -/
theorem run : θ_run defs (onTc (τ := τ) (main (F := Ideal))) ⟨m, fun _ => 0, ρ⟩ fun r => ∀ c : Dev nD,
      r.2.mem ((c.tc : Thread nD τ).loc main_v26) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9) :=
  (θ_run defs _ _).mono (fun r h c => ⟨((h c).2 main_v26 (Pipeline.mem_restRefs_of main_v26 (by decide) (by decide))).trans (tail_eq m c),
      ((h c).2 main_arg0 (Pipeline.mem_restRefs_of main_arg0 (by decide) (by decide))).trans (W_main_arg0 m (dats (F := Ideal) m) c),
      ((h c).2 main_arg1 (Pipeline.mem_restRefs_of main_arg1 (by decide) (by decide))).trans (W_main_arg1 m (dats (F := Ideal) m) c),
      ((h c).2 main_arg2 (Pipeline.mem_restRefs_of main_arg2 (by decide) (by decide))).trans (W_main_arg2 m (dats (F := Ideal) m) c),
      ((h c).2 main_arg3 (Pipeline.mem_restRefs_of main_arg3 (by decide) (by decide))).trans (W_main_arg3 m (dats (F := Ideal) m) c),
      ((h c).2 main_arg4 (Pipeline.mem_restRefs_of main_arg4 (by decide) (by decide))).trans (W_main_arg4 m (dats (F := Ideal) m) c),
      ((h c).2 main_arg5 (Pipeline.mem_restRefs_of main_arg5 (by decide) (by decide))).trans (W_main_arg5 m (dats (F := Ideal) m) c),
      ((h c).2 main_arg6 (Pipeline.mem_restRefs_of main_arg6 (by decide) (by decide))).trans (W_main_arg6 m (dats (F := Ideal) m) c),
      ((h c).2 main_arg7 (Pipeline.mem_restRefs_of main_arg7 (by decide) (by decide))).trans (W_main_arg7 m (dats (F := Ideal) m) c),
      ((h c).2 main_arg8 (Pipeline.mem_restRefs_of main_arg8 (by decide) (by decide))).trans (W_main_arg8 m (dats (F := Ideal) m) c),
      ((h c).2 main_arg9 (Pipeline.mem_restRefs_of main_arg9 (by decide) (by decide))).trans (W_main_arg9 m (dats (F := Ideal) m) c)⟩)
    (run_main m ρ)

end Cert.KernelIdeal.RunValue

end
-- ==== Proof.Bridge.lean ====
/-
  The five claims.

  The two kernels' frames and the reference's run are generated. The idealization rewrote nothing. At the ideal reading the
  kernel's result is the pairwise relation loss of the four half-layer matrices of the projected teacher and student features, the
  output weights and the output bias — its sixteen tile sums, accumulated four at a time, are the double sum over all pairs — and the
  reference's result is the same loss of the same matrices: its contraction over the 256 joined features is the two half-layers' sum,
  its logistic function is spelt out, its diagonal factor is the kernel's select. Both programs project the features by the same
  four host operations, so the matrices are the same functions of arguments that agree.
-/
import proofs.«147146_j47674136986059_2_alg».proof.Defs
import proofs.«147146_j47674136986059_2_alg».proof.Proof.Gen.Pre_finite_inputs
import proofs.«147146_j47674136986059_2_alg».proof.Proof.Gen.Kernel.Frame
import proofs.«147146_j47674136986059_2_alg».proof.Proof.Gen.KernelIdeal.Frame
import proofs.«147146_j47674136986059_2_alg».proof.Proof.Gen.ReferenceIdeal.Run
import proofs.«147146_j47674136986059_2_alg».proof.Proof.Gen.ReferenceIdeal.Read
import proofs.«147146_j47674136986059_2_alg».proof.Proof.Spec
import proofs.«147146_j47674136986059_2_alg».proof.Proof.RefSide
import proofs.«147146_j47674136986059_2_alg».proof.Proof.KernelHost
import proofs.«147146_j47674136986059_2_alg».proof.Proof.KernelRun

noncomputable section

namespace Cert.Proof.Claims

open Idealize.ShloMosaic Idealize.ShloMosaic.TcCoe Idealize.SL.Sem Idealize.ShloMosaic.ValueIdx
open Cert.PairRel

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- The kernel's result in terms of the arguments: the loss of the half-layer matrices of the two projections. -/
theorem kernel_result_eq (m : (ℓ : Loc Cert.KernelIdeal.nD Cert.KernelIdeal.τ Cert.KernelIdeal.sig) → Buf (Elt Ideal) ℓ)
    (c : Dev Cert.KernelIdeal.nD) :
    Cert.KernelIdeal.RunValue.result m c = fun _ =>
      loss (firstHalf (Cert.KernelIdeal.HostValue.tp m c) (Cert.KernelIdeal.HostValue.argV6 m c) (fun h => (Cert.KernelIdeal.HostValue.argV7 m c) (ix1 h)))
        (secondHalf (Cert.KernelIdeal.HostValue.tp m c) (Cert.KernelIdeal.HostValue.argV6 m c))
        (firstHalf (Cert.KernelIdeal.HostValue.sp m c) (Cert.KernelIdeal.HostValue.argV6 m c) (fun h => (Cert.KernelIdeal.HostValue.argV7 m c) (ix1 h)))
        (secondHalf (Cert.KernelIdeal.HostValue.sp m c) (Cert.KernelIdeal.HostValue.argV6 m c))
        (fun h => (Cert.KernelIdeal.HostValue.argV8 m c) (ix2 h (0 : Fin 1))) ((Cert.KernelIdeal.HostValue.argV9 m c) (ix1 (0 : Fin 1))) := by
  unfold Cert.KernelIdeal.RunValue.result
  rw [Cert.KernelIdeal.HostValue.At_eq, Cert.KernelIdeal.HostValue.Bt_eq, Cert.KernelIdeal.HostValue.As_eq,
    Cert.KernelIdeal.HostValue.Bs_eq, Cert.KernelIdeal.HostValue.hostFirst_eq, Cert.KernelIdeal.HostValue.hostSecond_eq,
    Cert.KernelIdeal.HostValue.hostFirst_eq, Cert.KernelIdeal.HostValue.hostSecond_eq, Cert.KernelIdeal.HostValue.wv_eq,
    Cert.KernelIdeal.HostValue.cv_eq]

theorem algebraic : Cert.algebraic_KernelIdeal_ReferenceIdeal := by
  intro m ρ m' ρ' _ hagree
  refine ⟨fun c => Cert.KernelIdeal.RunValue.result m c, Cert.KernelIdeal.RunValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9⟩ := hagree c
  show Cert.ReferenceIdeal.Value.res_main_v71 m' c = Cert.KernelIdeal.RunValue.result m c
  rw [Cert.ReferenceIdeal.Read.val_main_v71_eq, kernel_result_eq, a0, a1, a2, a3, a4, a5, a6, a7, a8, a9]
  funext i
  rw [Cert.ReferenceIdeal.RefValue.result_eq_loss]
  rfl

end Cert.Proof.Claims

end
-- ==== Proof.lean ====
/-
  The certificate's claim: a Pallas kernel that computes a pairwise relation distillation loss tile by tile, against its plain
  jnp reference.

  Features of 512 teacher and 512 student samples are projected to 128 columns. For each ordered pair (r, s) of samples a relation
  score is the logistic function of a one-hidden-layer network on the joined projections of r and s; the diagonal r = s is set to 0;
  the loss is the mean over all pairs of the squared difference of the student's and the teacher's scores. The reference joins the
  projections into a [512, 512, 256] array. The kernel never builds it: the first layer on a joined pair is the upper half of the
  layer on r plus the lower half on s, so it multiplies each projection by each half once, and then walks a 4 × 4 grid of 128 × 128
  tiles of pairs, accumulating each row of tiles into one scalar. Over the extended reals the two are the same number: a sum over
  256 indices is the sum over its halves, a sum over a square is the sum over its tiles in any order, the logistic function is the
  same function spelt two ways, and a product with 1 − [r = s] is a select on r = s because x · 0 = 0 for every x. None of this needs
  the inputs to be finite.

  Proof/Spec.lean states the loss and these laws; Proof/RefSide.lean reads the reference down to it; Proof/KernelPay.lean,
  Proof/KernelCases.lean, Proof/KernelChain.lean, Proof/KernelHost.lean and Proof/KernelRun.lean read the kernel down to it;
  Proof/Bridge.lean states the five claims; Proof/LibTileSum.lean is the regrouping of finite sums.
-/
import proofs.«147146_j47674136986059_2_alg».proof.Defs
import proofs.«147146_j47674136986059_2_alg».proof.Proof.Gen.Kernel
import proofs.«147146_j47674136986059_2_alg».proof.Proof.Gen.Kernel.Skeleton
import proofs.«147146_j47674136986059_2_alg».proof.Proof.Gen.Kernel.Launch
import proofs.«147146_j47674136986059_2_alg».proof.Proof.Gen.Kernel.Points
import proofs.«147146_j47674136986059_2_alg».proof.Proof.Gen.Kernel.Frame
import proofs.«147146_j47674136986059_2_alg».proof.Proof.Gen.KernelIdeal
import proofs.«147146_j47674136986059_2_alg».proof.Proof.Gen.KernelIdeal.Skeleton
import proofs.«147146_j47674136986059_2_alg».proof.Proof.Gen.KernelIdeal.Launch
import proofs.«147146_j47674136986059_2_alg».proof.Proof.Gen.KernelIdeal.Points
import proofs.«147146_j47674136986059_2_alg».proof.Proof.Gen.KernelIdeal.Frame
import proofs.«147146_j47674136986059_2_alg».proof.Proof.Gen.ReferenceIdeal
import proofs.«147146_j47674136986059_2_alg».proof.Proof.Gen.Pre_finite_inputs
import proofs.«147146_j47674136986059_2_alg».proof.Proof.Bridge
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    Claims.frame_k, Claims.frame_ki, Claims.frame_ri, Claims.preserves, Claims.algebraic⟩

end Cert.Proof

end
